-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v65)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v65) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v88) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x500 : Shape := ⟨2, ![100000, 500]⟩
abbrev S2x3200000 : Shape := ⟨2, ![2, 3200000]⟩
abbrev S500x16 : Shape := ⟨2, ![500, 16]⟩
abbrev S16 : Shape := ⟨1, ![16]⟩
abbrev S16x7 : Shape := ⟨2, ![16, 7]⟩
abbrev S7 : Shape := ⟨1, ![7]⟩
abbrev S_ : Shape := ⟨0, ![]⟩

class Facts : Prop where
  bcast_S_S100000x500 : S_.BroadcastsInDim S100000x500 (![] : Fin 0 → Fin S100000x500.rank)
  reducesTo_S100000x500_S_d0_1 : S100000x500.ReducesTo [0, 1] S_
  h_S_ : 0 < S_.numel
  bcast_S_S500x16 : S_.BroadcastsInDim S500x16 (![] : Fin 0 → Fin S500x16.rank)
  reducesTo_S500x16_S_d0_1 : S500x16.ReducesTo [0, 1] S_
  bcast_S_S16 : S_.BroadcastsInDim S16 (![] : Fin 0 → Fin S16.rank)
  reducesTo_S16_S_d0 : S16.ReducesTo [0] S_
  bcast_S_S16x7 : S_.BroadcastsInDim S16x7 (![] : Fin 0 → Fin S16x7.rank)
  reducesTo_S16x7_S_d0_1 : S16x7.ReducesTo [0, 1] S_
  bcast_S_S7 : S_.BroadcastsInDim S7 (![] : Fin 0 → Fin S7.rank)
  reducesTo_S7_S_d0 : S7.ReducesTo [0] S_

variable [Facts]

def fn_part1 {F : FTy → Type} [FloatOps F] (main_arg5 : FVec F S7 .f32) (main_v13 : IVec S_ 1) (main_v16 : IVec S16x7 1) : IVec S_ 1 :=
  let main_c_5 : IVec S_ 1 := constantI S_ 1 1#1
  let main_v17 : IVec S_ 1 := (fun x v => Host.reduce IntOp.andi x v reducesTo_S16x7_S_d0_1 h_S_) main_v16 main_c_5
  let main_v18 : IVec S_ 1 := andi main_v13 main_v17
  let main_v19 : FVec F S7 .f32 := Host.absf main_arg5
  let main_cst_6 : FVec F S_ .f32 := constant S_ .f32 0x7F800000#32
  let main_v20 : FVec F S7 .f32 := broadcastInDim S7 ![] bcast_S_S7 main_cst_6
  let main_v21 : IVec S7 1 := cmpf .olt main_v19 main_v20
  let main_c_7 : IVec S_ 1 := constantI S_ 1 1#1
  let main_v22 : IVec S_ 1 := (fun x v => Host.reduce IntOp.andi x v reducesTo_S7_S_d0 h_S_) main_v21 main_c_7
  let main_v23 : IVec S_ 1 := andi main_v18 main_v22
  main_v23

def fn {F : FTy → Type} [FloatOps F] (main_arg0 : FVec F S100000x500 .f32) (main_arg1 : IVec S2x3200000 32) (main_arg2 : FVec F S500x16 .f32) (main_arg3 : FVec F S16 .f32) (main_arg4 : FVec F S16x7 .f32) (main_arg5 : FVec F S7 .f32) : IVec S_ 1 :=
  let main_v0 : FVec F S100000x500 .f32 := Host.absf main_arg0
  let main_cst : FVec F S_ .f32 := constant S_ .f32 0x7F800000#32
  let main_v1 : FVec F S100000x500 .f32 := broadcastInDim S100000x500 ![] bcast_S_S100000x500 main_cst
  let main_v2 : IVec S100000x500 1 := cmpf .olt main_v0 main_v1
  let main_c : IVec S_ 1 := constantI S_ 1 1#1
  let main_v3 : IVec S_ 1 := (fun x v => Host.reduce IntOp.andi x v reducesTo_S100000x500_S_d0_1 h_S_) main_v2 main_c
  let main_v4 : FVec F S500x16 .f32 := Host.absf main_arg2
  let main_cst_0 : FVec F S_ .f32 := constant S_ .f32 0x7F800000#32
  let main_v5 : FVec F S500x16 .f32 := broadcastInDim S500x16 ![] bcast_S_S500x16 main_cst_0
  let main_v6 : IVec S500x16 1 := cmpf .olt main_v4 main_v5
  let main_c_1 : IVec S_ 1 := constantI S_ 1 1#1
  let main_v7 : IVec S_ 1 := (fun x v => Host.reduce IntOp.andi x v reducesTo_S500x16_S_d0_1 h_S_) main_v6 main_c_1
  let main_v8 : IVec S_ 1 := andi main_v3 main_v7
  let main_v9 : FVec F S16 .f32 := Host.absf main_arg3
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x7 .f32 := Host.absf main_arg4
  let main_cst_4 : FVec F S_ .f32 := constant S_ .f32 0x7F800000#32
  let main_v15 : FVec F S16x7 .f32 := broadcastInDim S16x7 ![] bcast_S_S16x7 main_cst_4
  let main_v16 : IVec S16x7 1 := cmpf .olt main_v14 main_v15
  fn_part1 (F := F) main_arg5 main_v13 main_v16
-- ==== Kernel.lean ====
abbrev S100000x500 : Shape := ⟨2, ![100000, 500]⟩
abbrev S2x3200000 : Shape := ⟨2, ![2, 3200000]⟩
abbrev S500x16 : Shape := ⟨2, ![500, 16]⟩
abbrev S16 : Shape := ⟨1, ![16]⟩
abbrev S16x7 : Shape := ⟨2, ![16, 7]⟩
abbrev S7 : Shape := ⟨1, ![7]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x16 : Shape := ⟨2, ![100000, 16]⟩
abbrev S4000x500 : Shape := ⟨2, ![4000, 500]⟩
abbrev S4000x16 : Shape := ⟨2, ![4000, 16]⟩
abbrev S3300000x16 : Shape := ⟨2, ![3300000, 16]⟩
abbrev S1x16 : Shape := ⟨2, ![1, 16]⟩
abbrev S100000x7 : Shape := ⟨2, ![100000, 7]⟩
abbrev S4000x7 : Shape := ⟨2, ![4000, 7]⟩
abbrev S3300000x7 : Shape := ⟨2, ![3300000, 7]⟩
abbrev S1x7 : Shape := ⟨2, ![1, 7]⟩
abbrev S100000x1 : Shape := ⟨2, ![100000, 1]⟩

abbrev nBuf : Space → Nat
  | .hbm => 104
  | .vmem => 10
  | .smem => 0
  | _ => 0

abbrev bufTy : (tb : Table) → Fin (tcTables nBuf tb) → BufTy
  | .hbm, ⟨0, _⟩ => ⟨S100000x500, .f32⟩
  | .hbm, ⟨1, _⟩ => ⟨S2x3200000, .i32⟩
  | .hbm, ⟨2, _⟩ => ⟨S500x16, .f32⟩
  | .hbm, ⟨3, _⟩ => ⟨S16, .f32⟩
  | .hbm, ⟨4, _⟩ => ⟨S16x7, .f32⟩
  | .hbm, ⟨5, _⟩ => ⟨S7, .f32⟩
  | .hbm, ⟨6, _⟩ => ⟨S100000, .i32⟩
  | .hbm, ⟨7, _⟩ => ⟨S1x3200000, .i32⟩
  | .hbm, ⟨8, _⟩ => ⟨S3200000, .i32⟩
  | .hbm, ⟨9, _⟩ => ⟨S3300000, .i32⟩
  | .hbm, ⟨10, _⟩ => ⟨S1x3200000, .i32⟩
  | .hbm, ⟨11, _⟩ => ⟨S3200000, .i32⟩
  | .hbm, ⟨12, _⟩ => ⟨S3300000, .i32⟩
  | .hbm, ⟨13, _⟩ => ⟨S_, .f32⟩
  | .hbm, ⟨14, _⟩ => ⟨S3300000, .f32⟩
  | .hbm, ⟨15, _⟩ => ⟨S_, .f32⟩
  | .hbm, ⟨16, _⟩ => ⟨S100000, .f32⟩
  | .hbm, ⟨17, _⟩ => ⟨S3300000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S3300000, .i32⟩
  | .hbm, ⟨29, _⟩ => ⟨S3300000, .i1⟩
  | .hbm, ⟨30, _⟩ => ⟨S_, .i32⟩
  | .hbm, ⟨31, _⟩ => ⟨S3300000, .i32⟩
  | .hbm, ⟨32, _⟩ => ⟨S3300000, .i32⟩
  | .hbm, ⟨33, _⟩ => ⟨S3300000, .i32⟩
  | .hbm, ⟨34, _⟩ => ⟨S3300000x1, .i32⟩
  | .hbm, ⟨35, _⟩ => ⟨S3300000, .f32⟩
  | .hbm, ⟨36, _⟩ => ⟨S_, .i32⟩
  | .hbm, ⟨37, _⟩ => ⟨S3300000, .i32⟩
  | .hbm, ⟨38, _⟩ => ⟨S3300000, .i1⟩
  | .hbm, ⟨39, _⟩ => ⟨S_, .i32⟩
  | .hbm, ⟨40, _⟩ => ⟨S3300000, .i32⟩
  | .hbm, ⟨41, _⟩ => ⟨S3300000, .i32⟩
  | .hbm, ⟨42, _⟩ => ⟨S3300000, .i32⟩
  | .hbm, ⟨43, _⟩ => ⟨S3300000x1, .i32⟩
  | .hbm, ⟨44, _⟩ => ⟨S3300000, .f32⟩
  | .hbm, ⟨45, _⟩ => ⟨S3300000, .f32⟩
  | .hbm, ⟨46, _⟩ => ⟨S100000x16, .f32⟩
  | .hbm, ⟨47, _⟩ => ⟨S_, .i32⟩
  | .hbm, ⟨48, _⟩ => ⟨S3300000, .i32⟩
  | .hbm, ⟨49, _⟩ => ⟨S3300000, .i1⟩
  | .hbm, ⟨50, _⟩ => ⟨S_, .i32⟩
  | .hbm, ⟨51, _⟩ => ⟨S3300000, .i32⟩
  | .hbm, ⟨52, _⟩ => ⟨S3300000, .i32⟩
  | .hbm, ⟨53, _⟩ => ⟨S3300000, .i32⟩
  | .hbm, ⟨54, _⟩ => ⟨S3300000x1, .i32⟩
  | .hbm, ⟨55, _⟩ => ⟨S3300000x16, .f32⟩
  | .hbm, ⟨56, _⟩ => ⟨S3300000x1, .f32⟩
  | .hbm, ⟨57, _⟩ => ⟨S3300000x16, .f32⟩
  | .hbm, ⟨58, _⟩ => ⟨S3300000x16, .f32⟩
  | .hbm, ⟨59, _⟩ => ⟨S_, .f32⟩
  | .hbm, ⟨60, _⟩ => ⟨S100000x16, .f32⟩
  | .hbm, ⟨61, _⟩ => ⟨S3300000x1, .i32⟩
  | .hbm, ⟨62, _⟩ => ⟨S100000x16, .f32⟩
  | .hbm, ⟨63, _⟩ => ⟨S1x16, .f32⟩
  | .hbm, ⟨64, _⟩ => ⟨S100000x16, .f32⟩
  | .hbm, ⟨65, _⟩ => ⟨S100000x16, .f32⟩
  | .hbm, ⟨66, _⟩ => ⟨S_, .f32⟩
  | .hbm, ⟨67, _⟩ => ⟨S100000x16, .f32⟩
  | .hbm, ⟨68, _⟩ => ⟨S100000x16, .f32⟩
  | .hbm, ⟨69, _⟩ => ⟨S100000x7, .f32⟩
  | .hbm, ⟨70, _⟩ => ⟨S_, .i32⟩
  | .hbm, ⟨71, _⟩ => ⟨S3300000, .i32⟩
  | .hbm, ⟨72, _⟩ => ⟨S3300000, .i1⟩
  | .hbm, ⟨73, _⟩ => ⟨S_, .i32⟩
  | .hbm, ⟨74, _⟩ => ⟨S3300000, .i32⟩
  | .hbm, ⟨75, _⟩ => ⟨S3300000, .i32⟩
  | .hbm, ⟨76, _⟩ => ⟨S3300000, .i32⟩
  | .hbm, ⟨77, _⟩ => ⟨S3300000x1, .i32⟩
  | .hbm, ⟨78, _⟩ => ⟨S3300000x7, .f32⟩
  | .hbm, ⟨79, _⟩ => ⟨S3300000x1, .f32⟩
  | .hbm, ⟨80, _⟩ => ⟨S3300000x7, .f32⟩
  | .hbm, ⟨81, _⟩ => ⟨S3300000x7, .f32⟩
  | .hbm, ⟨82, _⟩ => ⟨S_, .f32⟩
  | .hbm, ⟨83, _⟩ => ⟨S100000x7, .f32⟩
  | .hbm, ⟨84, _⟩ => ⟨S3300000x1, .i32⟩
  | .hbm, ⟨85, _⟩ => ⟨S100000x7, .f32⟩
  | .hbm, ⟨86, _⟩ => ⟨S1x7, .f32⟩
  | .hbm, ⟨87, _⟩ => ⟨S100000x7, .f32⟩
  | .hbm, ⟨88, _⟩ => ⟨S100000x7, .f32⟩
  | .hbm, ⟨89, _⟩ => ⟨S_, .f32⟩
  | .hbm, ⟨90, _⟩ => ⟨S100000, .f32⟩
  | .hbm, ⟨91, _⟩ => ⟨S_, .f32⟩
  | .hbm, ⟨92, _⟩ => ⟨S100000, .f32⟩
  | .hbm, ⟨93, _⟩ => ⟨S100000, .f32⟩
  | .hbm, ⟨94, _⟩ => ⟨S100000x1, .f32⟩
  | .hbm, ⟨95, _⟩ => ⟨S100000x7, .f32⟩
  | .hbm, ⟨96, _⟩ => ⟨S100000x7, .f32⟩
  | .hbm, ⟨97, _⟩ => ⟨S100000x7, .f32⟩
  | .hbm, ⟨98, _⟩ => ⟨S_, .f32⟩
  | .hbm, ⟨99, _⟩ => ⟨S100000, .f32⟩
  | .hbm, ⟨100, _⟩ => ⟨S100000x1, .f32⟩
  | .hbm, ⟨101, _⟩ => ⟨S100000x1, .f32⟩
  | .hbm, ⟨102, _⟩ => ⟨S100000x7, .f32⟩
  | .hbm, ⟨103, _⟩ => ⟨S100000x7, .f32⟩
  | .local _ .vmem, ⟨0, _⟩ => ⟨S4000x500, .f32⟩
  | .local _ .vmem, ⟨1, _⟩ => ⟨S4000x500, .f32⟩
  | .local _ .vmem, ⟨2, _⟩ => ⟨S500x16, .f32⟩
  | .local _ .vmem, ⟨3, _⟩ => ⟨S4000x16, .f32⟩
  | .local _ .vmem, ⟨4, _⟩ => ⟨S4000x16, .f32⟩
  | .local _ .vmem, ⟨5, _⟩ => ⟨S4000x16, .f32⟩
  | .local _ .vmem, ⟨6, _⟩ => ⟨S4000x16, .f32⟩
  | .local _ .vmem, ⟨7, _⟩ => ⟨S16x7, .f32⟩
  | .local _ .vmem, ⟨8, _⟩ => ⟨S4000x7, .f32⟩
  | .local _ .vmem, ⟨9, _⟩ => ⟨S4000x7, .f32⟩
  | _, _ => ⟨S100000x500, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_c_9 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_call2_cst : Ref sig .tc := ⟨.hbm, 89, rfl⟩
abbrev main_call2_v0 : Ref sig .tc := ⟨.hbm, 90, rfl⟩
abbrev main_call2_cst_0 : Ref sig .tc := ⟨.hbm, 91, rfl⟩
abbrev main_call2_v1 : Ref sig .tc := ⟨.hbm, 92, rfl⟩
abbrev main_call2_v2 : Ref sig .tc := ⟨.hbm, 93, rfl⟩
abbrev main_call2_v3 : Ref sig .tc := ⟨.hbm, 94, rfl⟩
abbrev main_call2_v4 : Ref sig .tc := ⟨.hbm, 95, rfl⟩
abbrev main_call2_v5 : Ref sig .tc := ⟨.hbm, 96, rfl⟩
abbrev main_call2_v6 : Ref sig .tc := ⟨.hbm, 97, rfl⟩
abbrev main_call2_cst_1 : Ref sig .tc := ⟨.hbm, 98, rfl⟩
abbrev main_call2_v7 : Ref sig .tc := ⟨.hbm, 99, rfl⟩
abbrev main_call2_v8 : Ref sig .tc := ⟨.hbm, 100, rfl⟩
abbrev main_call2_v9 : Ref sig .tc := ⟨.hbm, 101, rfl⟩
abbrev main_call2_v10 : Ref sig .tc := ⟨.hbm, 102, rfl⟩
abbrev main_v65 : Ref sig .tc := ⟨.hbm, 103, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x500 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S500x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S16x7 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S4000x7 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  inb_S4000x500_S4000x500_0_0 : ∀ a, (![0, 0] : Fin 2 → Nat) a + S4000x500.size a ≤ S4000x500.size a
  h_S4000x500 : 0 < S4000x500.numel
  bitsLt_bf16_f32 : FTy.bits .bf16 < FTy.bits .f32
  inb_S500x16_S500x16_0_0 : ∀ a, (![0, 0] : Fin 2 → Nat) a + S500x16.size a ≤ S500x16.size a
  h_S500x16 : 0 < S500x16.numel
  inb_S4000x16_S4000x16_0_0 : ∀ a, (![0, 0] : Fin 2 → Nat) a + S4000x16.size a ≤ S4000x16.size a
  h_S4000x16 : 0 < S4000x16.numel
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  shapeCasts_S4000x16_S4000x16 : S4000x16.ShapeCasts S4000x16
  inb_S16x7_S16x7_0_0 : ∀ a, (![0, 0] : Fin 2 → Nat) a + S16x7.size a ≤ S16x7.size a
  h_S16x7 : 0 < S16x7.numel
  inb_S4000x7_S4000x7_0_0 : ∀ a, (![0, 0] : Fin 2 → Nat) a + S4000x7.size a ≤ S4000x7.size a
  h_S4000x7 : 0 < S4000x7.numel
  bcast_S3300000x1_S3300000x7_0_1 : S3300000x1.BroadcastsInDim S3300000x7 (![0, 1] : Fin 2 → Fin S3300000x7.rank)
  bcast_S_S100000x7 : S_.BroadcastsInDim S100000x7 (![] : Fin 0 → Fin S100000x7.rank)
  bcast_S7_S1x7_1 : S7.BroadcastsInDim S1x7 (![1] : Fin 1 → Fin S1x7.rank)
  bcast_S1x7_S100000x7_0_1 : S1x7.BroadcastsInDim S100000x7 (![0, 1] : Fin 2 → Fin S100000x7.rank)
  reducesTo_S100000x7_S100000_d1 : S100000x7.ReducesTo [1] S100000
  h_S_ : 0 < S_.numel
  bcast_S100000_S100000x1_0 : S100000.BroadcastsInDim S100000x1 (![0] : Fin 1 → Fin S100000x1.rank)
  bcast_S100000x1_S100000x7_0_1 : S100000x1.BroadcastsInDim S100000x7 (![0, 1] : Fin 2 → Fin S100000x7.rank)
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S4000x500_S500x16_S4000x16_1_0_0_1_n_n_wf : DotDims.WF S4000x500 S500x16 S4000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S4000x16_S16x7_S4000x7_1_0_0_1_n_n_wf : DotDims.WF S4000x16 S16x7 S4000x7 [1] [0] [0] [1] [] []
  gather_S100000x7_S3300000x1_S3300000x7_1_0_n_n_0_1_17_wf : GatherDims.WF S100000x7 S3300000x1 S3300000x7 [1] [0] [] [0] [] 1 ![1, 7]
  scatter_S100000x7_S3300000x1_S3300000x7_1_0_0_1_wf : ScatterDims.WF S100000x7 S3300000x1 S3300000x7 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x500.size a ≤ S100000x500.size a
  hwx0_0 : ∀ i : grid0.Coords, EltTy.bits .f32 = 32 ∨ (Rect.block (s := S100000x500) S4000x500.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S500x16.size a ≤ S500x16.size a
  hwx0_1 : ∀ i : grid0.Coords, EltTy.bits .f32 = 32 ∨ (Rect.block (s := S500x16) S500x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x16.size a ≤ S100000x16.size a
  hwx0_2 : ∀ i : grid0.Coords, EltTy.bits .f32 = 32 ∨ (Rect.block (s := S100000x16) S4000x16.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x16.size a ≤ S100000x16.size a
  hwx1_0 : ∀ i : grid1.Coords, EltTy.bits .f32 = 32 ∨ (Rect.block (s := S100000x16) S4000x16.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S16x7.size a ≤ S16x7.size a
  hwx1_1 : ∀ i : grid1.Coords, EltTy.bits .f32 = 32 ∨ (Rect.block (s := S16x7) S16x7.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x7.size a ≤ S100000x7.size a
  hwx1_2 : ∀ i : grid1.Coords, EltTy.bits .f32 = 32 ∨ (Rect.block (s := S100000x7) S4000x7.size (cc1_transform_2 i) (hinb1_2 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S4000x500_S500x16_S4000x16_1_0_0_1_n_n : DotDims S4000x500 S500x16 S4000x16 where
  lhsContracting := [1]
  rhsContracting := [0]
  lhsNonContracting := [0]
  rhsNonContracting := [1]
  lhsBatch := []
  rhsBatch := []
  wf := dot_S4000x500_S500x16_S4000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S4000x16_S16x7_S4000x7_1_0_0_1_n_n : DotDims S4000x16 S16x7 S4000x7 where
  lhsContracting := [1]
  rhsContracting := [0]
  lhsNonContracting := [0]
  rhsNonContracting := [1]
  lhsBatch := []
  rhsBatch := []
  wf := dot_S4000x16_S16x7_S4000x7_1_0_0_1_n_n_wf
def gather_S100000x7_S3300000x1_S3300000x7_1_0_n_n_0_1_17 : GatherDims S100000x7 S3300000x1 S3300000x7 where
  offsetDims := [1]
  collapsedSliceDims := [0]
  operandBatchingDims := []
  startIndicesBatchingDims := []
  startIndexMap := [0]
  indexVectorDim := 1
  sliceSizes := ![1, 7]
  wf := gather_S100000x7_S3300000x1_S3300000x7_1_0_n_n_0_1_17_wf
def scatter_S100000x7_S3300000x1_S3300000x7_1_0_0_1 : ScatterDims S100000x7 S3300000x1 S3300000x7 where
  updateWindowDims := [1]
  insertedWindowDims := [0]
  scatterDimsToOperandDims := [0]
  indexVectorDim := 1
  wf := scatter_S100000x7_S3300000x1_S3300000x7_1_0_0_1_wf

abbrev win0_0 : Pipeline.Window sig grid0 :=
  Pipeline.Window.ofSpec (Memref.whole main_arg0) S4000x500.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S500x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S4000x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v47) S4000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S16x7.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v48) S4000x7.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x500 : Shape := ⟨2, ![100000, 500]⟩
abbrev S2x3200000 : Shape := ⟨2, ![2, 3200000]⟩
abbrev S500x16 : Shape := ⟨2, ![500, 16]⟩
abbrev S16 : Shape := ⟨1, ![16]⟩
abbrev S16x7 : Shape := ⟨2, ![16, 7]⟩
abbrev S7 : Shape := ⟨1, ![7]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S100000x16 : Shape := ⟨2, ![100000, 16]⟩
abbrev S_ : Shape := ⟨0, ![]⟩
abbrev S3300000x1 : Shape := ⟨2, ![3300000, 1]⟩
abbrev S3300000x16 : Shape := ⟨2, ![3300000, 16]⟩
abbrev S1x16 : Shape := ⟨2, ![1, 16]⟩
abbrev S100000x7 : Shape := ⟨2, ![100000, 7]⟩
abbrev S3300000x7 : Shape := ⟨2, ![3300000, 7]⟩
abbrev S1x7 : Shape := ⟨2, ![1, 7]⟩
abbrev S100000x1 : Shape := ⟨2, ![100000, 1]⟩

abbrev nBuf : Space → Nat
  | .hbm => 137
  | .vmem => 0
  | .smem => 0
  | _ => 0

abbrev hbmTy0_0 (i : Nat) : BufTy := match i % 128 with
  | 0 => ⟨S100000x500, .f32⟩
  | 1 => ⟨S2x3200000, .i32⟩
  | 2 => ⟨S500x16, .f32⟩
  | 3 => ⟨S16, .f32⟩
  | 4 => ⟨S16x7, .f32⟩
  | 5 => ⟨S7, .f32⟩
  | 6 => ⟨S100000, .i32⟩
  | 7 => ⟨S1x3200000, .i32⟩
  | 8 => ⟨S3200000, .i32⟩
  | 9 => ⟨S3300000, .i32⟩
  | 10 => ⟨S1x3200000, .i32⟩
  | 11 => ⟨S3200000, .i32⟩
  | 12 => ⟨S3300000, .i32⟩
  | 13 => ⟨S100000x16, .f32⟩
  | 14 => ⟨S_, .f32⟩
  | 15 => ⟨S3300000, .f32⟩
  | 16 => ⟨S_, .f32⟩
  | 17 => ⟨S100000, .f32⟩
  | 18 => ⟨S3300000x1, .i32⟩
  | 19 => ⟨S100000, .f32⟩
  | 20 => ⟨S_, .f32⟩
  | 21 => ⟨S100000, .f32⟩
  | 22 => ⟨S100000, .i1⟩
  | 23 => ⟨S100000, .f32⟩
  | 24 => ⟨S_, .f32⟩
  | 25 => ⟨S_, .f32⟩
  | 26 => ⟨S100000, .f32⟩
  | 27 => ⟨S100000, .f32⟩
  | 28 => ⟨S_, .i32⟩
  | 29 => ⟨S3300000, .i32⟩
  | 30 => ⟨S3300000, .i1⟩
  | 31 => ⟨S_, .i32⟩
  | 32 => ⟨S3300000, .i32⟩
  | 33 => ⟨S3300000, .i32⟩
  | 34 => ⟨S3300000, .i32⟩
  | 35 => ⟨S3300000x1, .i32⟩
  | 36 => ⟨S3300000, .f32⟩
  | 37 => ⟨S_, .i32⟩
  | 38 => ⟨S3300000, .i32⟩
  | 39 => ⟨S3300000, .i1⟩
  | 40 => ⟨S_, .i32⟩
  | 41 => ⟨S3300000, .i32⟩
  | 42 => ⟨S3300000, .i32⟩
  | 43 => ⟨S3300000, .i32⟩
  | 44 => ⟨S3300000x1, .i32⟩
  | 45 => ⟨S3300000, .f32⟩
  | 46 => ⟨S3300000, .f32⟩
  | 47 => ⟨S_, .i32⟩
  | 48 => ⟨S3300000, .i32⟩
  | 49 => ⟨S3300000, .i1⟩
  | 50 => ⟨S_, .i32⟩
  | 51 => ⟨S3300000, .i32⟩
  | 52 => ⟨S3300000, .i32⟩
  | 53 => ⟨S3300000, .i32⟩
  | 54 => ⟨S3300000x1, .i32⟩
  | 55 => ⟨S3300000x16, .f32⟩
  | 56 => ⟨S3300000x1, .f32⟩
  | 57 => ⟨S3300000x16, .f32⟩
  | 58 => ⟨S3300000x16, .f32⟩
  | 59 => ⟨S_, .f32⟩
  | 60 => ⟨S100000x16, .f32⟩
  | 61 => ⟨S3300000x1, .i32⟩
  | 62 => ⟨S100000x16, .f32⟩
  | 63 => ⟨S1x16, .f32⟩
  | 64 => ⟨S100000x16, .f32⟩
  | 65 => ⟨S100000x16, .f32⟩
  | 66 => ⟨S_, .f32⟩
  | 67 => ⟨S100000x16, .f32⟩
  | 68 => ⟨S100000x16, .f32⟩
  | 69 => ⟨S100000x7, .f32⟩
  | 70 => ⟨S_, .f32⟩
  | 71 => ⟨S3300000, .f32⟩
  | 72 => ⟨S_, .f32⟩
  | 73 => ⟨S100000, .f32⟩
  | 74 => ⟨S3300000x1, .i32⟩
  | 75 => ⟨S100000, .f32⟩
  | 76 => ⟨S_, .f32⟩
  | 77 => ⟨S100000, .f32⟩
  | 78 => ⟨S100000, .i1⟩
  | 79 => ⟨S100000, .f32⟩
  | 80 => ⟨S_, .f32⟩
  | 81 => ⟨S_, .f32⟩
  | 82 => ⟨S100000, .f32⟩
  | 83 => ⟨S100000, .f32⟩
  | 84 => ⟨S_, .i32⟩
  | 85 => ⟨S3300000, .i32⟩
  | 86 => ⟨S3300000, .i1⟩
  | 87 => ⟨S_, .i32⟩
  | 88 => ⟨S3300000, .i32⟩
  | 89 => ⟨S3300000, .i32⟩
  | 90 => ⟨S3300000, .i32⟩
  | 91 => ⟨S3300000x1, .i32⟩
  | 92 => ⟨S3300000, .f32⟩
  | 93 => ⟨S_, .i32⟩
  | 94 => ⟨S3300000, .i32⟩
  | 95 => ⟨S3300000, .i1⟩
  | 96 => ⟨S_, .i32⟩
  | 97 => ⟨S3300000, .i32⟩
  | 98 => ⟨S3300000, .i32⟩
  | 99 => ⟨S3300000, .i32⟩
  | 100 => ⟨S3300000x1, .i32⟩
  | 101 => ⟨S3300000, .f32⟩
  | 102 => ⟨S3300000, .f32⟩
  | 103 => ⟨S_, .i32⟩
  | 104 => ⟨S3300000, .i32⟩
  | 105 => ⟨S3300000, .i1⟩
  | 106 => ⟨S_, .i32⟩
  | 107 => ⟨S3300000, .i32⟩
  | 108 => ⟨S3300000, .i32⟩
  | 109 => ⟨S3300000, .i32⟩
  | 110 => ⟨S3300000x1, .i32⟩
  | 111 => ⟨S3300000x7, .f32⟩
  | 112 => ⟨S3300000x1, .f32⟩
  | 113 => ⟨S3300000x7, .f32⟩
  | 114 => ⟨S3300000x7, .f32⟩
  | 115 => ⟨S_, .f32⟩
  | 116 => ⟨S100000x7, .f32⟩
  | 117 => ⟨S3300000x1, .i32⟩
  | 118 => ⟨S100000x7, .f32⟩
  | 119 => ⟨S1x7, .f32⟩
  | 120 => ⟨S100000x7, .f32⟩
  | 121 => ⟨S100000x7, .f32⟩
  | 122 => ⟨S_, .f32⟩
  | 123 => ⟨S100000, .f32⟩
  | 124 => ⟨S_, .f32⟩
  | 125 => ⟨S100000, .f32⟩
  | 126 => ⟨S100000, .f32⟩
  | 127 => ⟨S100000x1, .f32⟩
  | _ => ⟨S100000x500, .f32⟩

abbrev hbmTy0_1 (i : Nat) : BufTy := match i % 128 with
  | 0 => ⟨S100000x7, .f32⟩
  | 1 => ⟨S100000x7, .f32⟩
  | 2 => ⟨S100000x7, .f32⟩
  | 3 => ⟨S_, .f32⟩
  | 4 => ⟨S100000, .f32⟩
  | 5 => ⟨S100000x1, .f32⟩
  | 6 => ⟨S100000x1, .f32⟩
  | 7 => ⟨S100000x7, .f32⟩
  | 8 => ⟨S100000x7, .f32⟩
  | _ => ⟨S100000x500, .f32⟩

abbrev hbmTy (i : Nat) : BufTy := match i / 128 with
  | 0 => hbmTy0_0 i
  | 1 => hbmTy0_1 i
  | _ => ⟨S100000x500, .f32⟩

abbrev bufTy : (tb : Table) → Fin (tcTables nBuf tb) → BufTy
  | .hbm, ⟨i, _⟩ => hbmTy i
  | _, _ => ⟨S100000x500, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_cst_9 : Ref sig .tc := ⟨.hbm, 70, rfl⟩
abbrev main_v49 : Ref sig .tc := ⟨.hbm, 71, rfl⟩
abbrev main_cst_10 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_cst_11 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_cst_12 : Ref sig .tc := ⟨.hbm, 80, rfl⟩
abbrev main_call2_v0 : Ref sig .tc := ⟨.hbm, 81, rfl⟩
abbrev main_call2_v1 : Ref sig .tc := ⟨.hbm, 82, rfl⟩
abbrev main_v56 : Ref sig .tc := ⟨.hbm, 83, rfl⟩
abbrev main_c_13 : Ref sig .tc := ⟨.hbm, 84, rfl⟩
abbrev main_v57 : Ref sig .tc := ⟨.hbm, 85, rfl⟩
abbrev main_v58 : Ref sig .tc := ⟨.hbm, 86, rfl⟩
abbrev main_c_14 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_c_15 : Ref sig .tc := ⟨.hbm, 93, rfl⟩
abbrev main_v64 : Ref sig .tc := ⟨.hbm, 94, rfl⟩
abbrev main_v65 : Ref sig .tc := ⟨.hbm, 95, rfl⟩
abbrev main_c_16 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_c_17 : Ref sig .tc := ⟨.hbm, 103, rfl⟩
abbrev main_v72 : Ref sig .tc := ⟨.hbm, 104, rfl⟩
abbrev main_v73 : Ref sig .tc := ⟨.hbm, 105, rfl⟩
abbrev main_c_18 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_cst_19 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_call3_cst : Ref sig .tc := ⟨.hbm, 122, rfl⟩
abbrev main_call3_v0 : Ref sig .tc := ⟨.hbm, 123, rfl⟩
abbrev main_call3_cst_0 : Ref sig .tc := ⟨.hbm, 124, rfl⟩
abbrev main_call3_v1 : Ref sig .tc := ⟨.hbm, 125, rfl⟩
abbrev main_call3_v2 : Ref sig .tc := ⟨.hbm, 126, rfl⟩
abbrev main_call3_v3 : Ref sig .tc := ⟨.hbm, 127, rfl⟩
abbrev main_call3_v4 : Ref sig .tc := ⟨.hbm, 128, rfl⟩
abbrev main_call3_v5 : Ref sig .tc := ⟨.hbm, 129, rfl⟩
abbrev main_call3_v6 : Ref sig .tc := ⟨.hbm, 130, rfl⟩
abbrev main_call3_cst_1 : Ref sig .tc := ⟨.hbm, 131, rfl⟩
abbrev main_call3_v7 : Ref sig .tc := ⟨.hbm, 132, rfl⟩
abbrev main_call3_v8 : Ref sig .tc := ⟨.hbm, 133, rfl⟩
abbrev main_call3_v9 : Ref sig .tc := ⟨.hbm, 134, rfl⟩
abbrev main_call3_v10 : Ref sig .tc := ⟨.hbm, 135, rfl⟩
abbrev main_v88 : Ref sig .tc := ⟨.hbm, 136, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S3300000x1_S3300000x7_0_1 : S3300000x1.BroadcastsInDim S3300000x7 (![0, 1] : Fin 2 → Fin S3300000x7.rank)
  bcast_S_S100000x7 : S_.BroadcastsInDim S100000x7 (![] : Fin 0 → Fin S100000x7.rank)
  bcast_S7_S1x7_1 : S7.BroadcastsInDim S1x7 (![1] : Fin 1 → Fin S1x7.rank)
  bcast_S1x7_S100000x7_0_1 : S1x7.BroadcastsInDim S100000x7 (![0, 1] : Fin 2 → Fin S100000x7.rank)
  reducesTo_S100000x7_S100000_d1 : S100000x7.ReducesTo [1] S100000
  h_S_ : 0 < S_.numel
  bcast_S100000_S100000x1_0 : S100000.BroadcastsInDim S100000x1 (![0] : Fin 1 → Fin S100000x1.rank)
  bcast_S100000x1_S100000x7_0_1 : S100000x1.BroadcastsInDim S100000x7 (![0, 1] : Fin 2 → Fin S100000x7.rank)
  dot_S100000x500_S500x16_S100000x16_1_0_0_1_n_n_wf : DotDims.WF S100000x500 S500x16 S100000x16 [1] [0] [0] [1] [] []
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S100000x16_S16x7_S100000x7_1_0_0_1_n_n_wf : DotDims.WF S100000x16 S16x7 S100000x7 [1] [0] [0] [1] [] []
  gather_S100000x7_S3300000x1_S3300000x7_1_0_n_n_0_1_17_wf : GatherDims.WF S100000x7 S3300000x1 S3300000x7 [1] [0] [] [0] [] 1 ![1, 7]
  scatter_S100000x7_S3300000x1_S3300000x7_1_0_0_1_wf : ScatterDims.WF S100000x7 S3300000x1 S3300000x7 [1] [0] [0] 1

variable [Facts₀]

def dot_S100000x500_S500x16_S100000x16_1_0_0_1_n_n : DotDims S100000x500 S500x16 S100000x16 where
  lhsContracting := [1]
  rhsContracting := [0]
  lhsNonContracting := [0]
  rhsNonContracting := [1]
  lhsBatch := []
  rhsBatch := []
  wf := dot_S100000x500_S500x16_S100000x16_1_0_0_1_n_n_wf
def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S100000x16_S16x7_S100000x7_1_0_0_1_n_n : DotDims S100000x16 S16x7 S100000x7 where
  lhsContracting := [1]
  rhsContracting := [0]
  lhsNonContracting := [0]
  rhsNonContracting := [1]
  lhsBatch := []
  rhsBatch := []
  wf := dot_S100000x16_S16x7_S100000x7_1_0_0_1_n_n_wf
def gather_S100000x7_S3300000x1_S3300000x7_1_0_n_n_0_1_17 : GatherDims S100000x7 S3300000x1 S3300000x7 where
  offsetDims := [1]
  collapsedSliceDims := [0]
  operandBatchingDims := []
  startIndicesBatchingDims := []
  startIndexMap := [0]
  indexVectorDim := 1
  sliceSizes := ![1, 7]
  wf := gather_S100000x7_S3300000x1_S3300000x7_1_0_n_n_0_1_17_wf
def scatter_S100000x7_S3300000x1_S3300000x7_1_0_0_1 : ScatterDims S100000x7 S3300000x1 S3300000x7 where
  updateWindowDims := [1]
  insertedWindowDims := [0]
  scatterDimsToOperandDims := [0]
  indexVectorDim := 1
  wf := scatter_S100000x7_S3300000x1_S3300000x7_1_0_0_1_wf

class Facts : Prop extends Facts₀ where

variable [Facts]
-- ==== Proof.KernelRun.lean ====
/-
  The idealized kernel program's run with its result named. Every weakly fair execution from a memory with zero
  counters terminates without a fault; the argument arrays end as launched, and the result array ends at the last
  stage of the fold through the program: three stretches of host operations, the first dense product's region, two
  stretches, the second product's region, two stretches (`Gen.W9` read at the result's buffer). The run itself is the
  launch of the program's nine segments; only what is read off the last thread state differs from the frame statement.
-/
import proofs.«168640_j2147483648538_1_alg».proof.Proof.Gen.KernelIdeal.Frame

set_option maxRecDepth 16384

noncomputable section

namespace Cert.KernelIdeal.RunV

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result array at the fold's last stage, the six argument arrays unchanged. -/
theorem run_main : θ_run defs (onTc (τ := τ) (main (F := F))) ⟨m, fun _ => 0, ρ⟩ (fun r => ∀ c : Dev nD,
      r.2.mem ((c.tc : Thread nD τ).loc main_v65) = W9 m ρ c (Proc.devRef .tc main_v65)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v65 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c)⟩)

end Cert.KernelIdeal.RunV

end
-- ==== Proof.KSpec.lean ====
/-
  The host side of the two-layer graph convolution, as pure functions over the kernel program's shapes: the message
  endpoints read off the edge list, the symmetric normalisation, and what each layer does to its dense product.
-/
import proofs.«168640_j2147483648538_1_alg».proof.Proof.Gen.KernelIdeal

noncomputable section

namespace Cert.Gcn.K

open Cert.KernelIdeal Cert.KernelIdeal.Gen Idealize.ShloMosaic

variable {F : FTy → Type} [FloatOps F]

/-- The sources of all messages: row 0 of the edge list, then every node once (its loop to itself). -/
def srcOf (e : (⟨S2x3200000, .i32⟩ : BufTy).Contents (Elt F)) : (⟨S3300000, .i32⟩ : BufTy).Contents (Elt F) :=
  concatenate S3300000 0 [⟨S3200000, shapeCast S3200000 (extractStridedSlice S1x3200000 ![0, 0] e slices_S2x3200000_S1x3200000_0_0) shapeCasts_S1x3200000_S3200000⟩, ⟨S100000, iotaInDim S100000 32 0⟩] concatenates_S3200000_S100000_S3300000_d0

/-- The destinations of all messages: row 1 of the edge list, then every node once. -/
def dstOf (e : (⟨S2x3200000, .i32⟩ : BufTy).Contents (Elt F)) : (⟨S3300000, .i32⟩ : BufTy).Contents (Elt F) :=
  concatenate S3300000 0 [⟨S3200000, shapeCast S3200000 (extractStridedSlice S1x3200000 ![1, 0] e slices_S2x3200000_S1x3200000_1_0) shapeCasts_S1x3200000_S3200000⟩, ⟨S100000, iotaInDim S100000 32 0⟩] concatenates_S3200000_S100000_S3300000_d0

/-- Node numbers as a column of row positions for a gather: a negative number counts from the end (100000 is added). -/
def wrap (s : (⟨S3300000, .i32⟩ : BufTy).Contents (Elt F)) : (⟨S3300000x1, .i32⟩ : BufTy).Contents (Elt F) :=
  broadcastInDim S3300000x1 ![0] bcast_S3300000_S3300000x1_0
    (select (cmpi .slt s (broadcastInDim S3300000 ![] bcast_S_S3300000 (constantI S_ 32 0#32)))
      (addi s (broadcastInDim S3300000 ![] bcast_S_S3300000 (constantI S_ 32 100000#32))) s)

/-- In-degree of every node, loops included: ones added up at the destinations. -/
def degOf (d : (⟨S3300000, .i32⟩ : BufTy).Contents (Elt F)) : (⟨S100000, .f32⟩ : BufTy).Contents (Elt F) :=
  Host.scatterAdd scatter_S100000_S3300000x1_S3300000_n_0_0_1
    (broadcastInDim S100000 ![] bcast_S_S100000 (constant S_ .f32 0x00000000#32))
    (broadcastInDim S3300000x1 ![0] bcast_S3300000_S3300000x1_0 d)
    (broadcastInDim S3300000 ![] bcast_S_S3300000 (constant S_ .f32 0x3F800000#32))

/-- deg^(-1/2) where the degree is positive, 0 elsewhere. -/
def dinvOf (d : (⟨S3300000, .i32⟩ : BufTy).Contents (Elt F)) : (⟨S100000, .f32⟩ : BufTy).Contents (Elt F) :=
  select (cmpf (F := F) .ogt (degOf d) (broadcastInDim S100000 ![] bcast_S_S100000 (constant S_ .f32 0x00000000#32)))
    (Host.rsqrt (degOf d))
    (broadcastInDim S100000 ![] bcast_S_S100000 (constant S_ .f32 0x00000000#32))

/-- The symmetric weight of every message: dinv at its source times dinv at its destination. -/
def normOf (s d : (⟨S3300000, .i32⟩ : BufTy).Contents (Elt F)) : (⟨S3300000, .f32⟩ : BufTy).Contents (Elt F) :=
  mulf (Host.gather gather_S100000_S3300000x1_S3300000_n_0_n_n_0_1_1 (dinvOf d) (wrap s))
    (Host.gather gather_S100000_S3300000x1_S3300000_n_0_n_n_0_1_1 (dinvOf d) (wrap d))

/-- The first layer after its dense product `h`: the rows of `h` at the sources, weighted, added up at the
    destinations; the bias added to every row; negative entries replaced by 0. -/
def tail1 (h : (⟨S100000x16, .f32⟩ : BufTy).Contents (Elt F)) (s d : (⟨S3300000, .i32⟩ : BufTy).Contents (Elt F))
    (nrm : (⟨S3300000, .f32⟩ : BufTy).Contents (Elt F)) (b : (⟨S16, .f32⟩ : BufTy).Contents (Elt F)) :
    (⟨S100000x16, .f32⟩ : BufTy).Contents (Elt F) :=
  maximumf
    (addf
      (Host.scatterAdd scatter_S100000x16_S3300000x1_S3300000x16_1_0_0_1
        (broadcastInDim S100000x16 ![] bcast_S_S100000x16 (constant S_ .f32 0x00000000#32))
        (broadcastInDim S3300000x1 ![0] bcast_S3300000_S3300000x1_0 d)
        (mulf (Host.gather gather_S100000x16_S3300000x1_S3300000x16_1_0_n_n_0_1_116 h (wrap s))
          (broadcastInDim S3300000x16 ![0, 1] bcast_S3300000x1_S3300000x16_0_1
            (broadcastInDim S3300000x1 ![0] bcast_S3300000_S3300000x1_0 nrm))))
      (broadcastInDim S100000x16 ![0, 1] bcast_S1x16_S100000x16_0_1 (broadcastInDim S1x16 ![1] bcast_S16_S1x16_1 b)))
    (broadcastInDim S100000x16 ![] bcast_S_S100000x16 (constant S_ .f32 0x00000000#32))

/-- A row minus its largest entry (the largest taken against -∞). -/
def shifted (z : (⟨S100000x7, .f32⟩ : BufTy).Contents (Elt F)) : (⟨S100000x7, .f32⟩ : BufTy).Contents (Elt F) :=
  subf z
    (broadcastInDim S100000x7 ![0, 1] bcast_S100000x1_S100000x7_0_1
      (broadcastInDim S100000x1 ![0] bcast_S100000_S100000x1_0
        (maximumf (broadcastInDim S100000 ![] bcast_S_S100000 (constant S_ .f32 0xFF800000#32))
          (Host.reduce FloatOps.maximumf z (constant S_ .f32 0xFF800000#32) reducesTo_S100000x7_S100000_d1 h_S_))))

/-- The logarithm of the row-wise softmax: the shifted row minus the logarithm of the sum of its exponentials. -/
def logSoftmax (z : (⟨S100000x7, .f32⟩ : BufTy).Contents (Elt F)) : (⟨S100000x7, .f32⟩ : BufTy).Contents (Elt F) :=
  subf (shifted z)
    (broadcastInDim S100000x7 ![0, 1] bcast_S100000x1_S100000x7_0_1
      (Host.log
        (broadcastInDim S100000x1 ![0] bcast_S100000_S100000x1_0
          (Host.reduceAdd (Host.exp (shifted z)) (constant S_ .f32 0x00000000#32) reducesTo_S100000x7_S100000_d1 h_S_))))

/-- The second layer after its dense product `h`: the same aggregation over 7 columns, the bias, the log-softmax of
    every row. -/
def tail2 (h : (⟨S100000x7, .f32⟩ : BufTy).Contents (Elt F)) (s d : (⟨S3300000, .i32⟩ : BufTy).Contents (Elt F))
    (nrm : (⟨S3300000, .f32⟩ : BufTy).Contents (Elt F)) (b : (⟨S7, .f32⟩ : BufTy).Contents (Elt F)) :
    (⟨S100000x7, .f32⟩ : BufTy).Contents (Elt F) :=
  logSoftmax
    (addf
      (Host.scatterAdd scatter_S100000x7_S3300000x1_S3300000x7_1_0_0_1
        (broadcastInDim S100000x7 ![] bcast_S_S100000x7 (constant S_ .f32 0x00000000#32))
        (broadcastInDim S3300000x1 ![0] bcast_S3300000_S3300000x1_0 d)
        (mulf (Host.gather gather_S100000x7_S3300000x1_S3300000x7_1_0_n_n_0_1_17 h (wrap s))
          (broadcastInDim S3300000x7 ![0, 1] bcast_S3300000x1_S3300000x7_0_1
            (broadcastInDim S3300000x1 ![0] bcast_S3300000_S3300000x1_0 nrm))))
      (broadcastInDim S100000x7 ![0, 1] bcast_S1x7_S100000x7_0_1 (broadcastInDim S1x7 ![1] bcast_S7_S1x7_1 b)))

end Cert.Gcn.K

end
-- ==== Proof.KFolds.lean ====
/-
  What each stretch of host operations of the idealized kernel program leaves in the buffers the later stages read,
  as functions of the buffer contents `V` the stretch starts from. Before the first region: the message sources, the
  message destinations and the symmetric weights, all read off the edge list, and the five float arguments untouched.
  Between the regions: the first layer's output from the first product, the endpoints, the weights and the bias;
  endpoints, weights and the remaining arguments untouched. After the second region: the result from the second
  product, the endpoints, the weights and the bias. A value passed to or from an outlined function (the select, the
  rectifier, the log-softmax) crosses a change of type that is the identity.
-/
import proofs.«168640_j2147483648538_1_alg».proof.Proof.Gen.KernelIdeal.Launch
import proofs.«168640_j2147483648538_1_alg».proof.Proof.KSpec

set_option maxRecDepth 16384

noncomputable section

namespace Cert.Gcn.KFold

open Cert.KernelIdeal Cert.KernelIdeal.Gen Idealize.ShloMosaic Idealize.ShloMosaic.TcCoe Idealize.ShloMosaic.StableHlo
open Cert.Gcn.K

variable {F : FTy → Type} [FloatOps F]

/-- Contents carried to a buffer's own type and back are the contents. -/
theorem ofBuf_toBuf {sig : RefSig} {Val : EltTy → Type} {T : BufTy} (x : TRef sig T) (v : T.Contents Val) :
    x.ofBuf (x.toBuf v) = v := by
  obtain ⟨r, h, h2, h3⟩ := x
  subst h
  rfl

theorem in_cst_2 (y : main_cst_2.ty.Contents (Elt F)) : (TRef.of (T := ⟨S_, .f32⟩) main_cst_2).ofBuf y = y := rfl
theorem in_v12 (y : main_v12.ty.Contents (Elt F)) : (TRef.of (T := ⟨S100000, .i1⟩) main_v12).ofBuf y = y := rfl
theorem in_v13 (y : main_v13.ty.Contents (Elt F)) : (TRef.of (T := ⟨S100000, .f32⟩) main_v13).ofBuf y = y := rfl
theorem out_v14 (y : (⟨S100000, .f32⟩ : BufTy).Contents (Elt F)) : (TRef.of (T := ⟨S100000, .f32⟩) main_v14).toBuf y = y := rfl
theorem in_v46 (y : main_v46.ty.Contents (Elt F)) : (TRef.of (T := ⟨S100000x16, .f32⟩) main_v46).ofBuf y = y := rfl
theorem out_v47 (y : (⟨S100000x16, .f32⟩ : BufTy).Contents (Elt F)) : (TRef.of (T := ⟨S100000x16, .f32⟩) main_v47).toBuf y = y := rfl
theorem in_v64 (y : main_v64.ty.Contents (Elt F)) : (TRef.of (T := ⟨S100000x7, .f32⟩) main_v64).ofBuf y = y := rfl
theorem out_v65 (y : (⟨S100000x7, .f32⟩ : BufTy).Contents (Elt F)) : (TRef.of (T := ⟨S100000x7, .f32⟩) main_v65).toBuf y = y := rfl

/-- Read every fold in the goal, then drop the identity changes of type. -/
macro "read_stage" : tactic =>
  `(tactic| (after_results_simp
             try after_results
             try simp only [ofBuf_toBuf, in_cst_2, in_v12, in_v13, out_v14, in_v46, out_v47, in_v64, out_v65, id_eq]))

/-- The buffers before the first region, from the contents at launch. -/
abbrev pre (V : Valuation τ sig (Elt F)) : Valuation τ sig (Elt F) := after hostOps0_2 (after hostOps0_1 (after hostOps0 V))
/-- The buffers before the second region, from those the first region leaves. -/
abbrev mid (V : Valuation τ sig (Elt F)) : Valuation τ sig (Elt F) := after hostOps1_1 (after hostOps1 V)
/-- The buffers at the return, from those the second region leaves. -/
abbrev fin (V : Valuation τ sig (Elt F)) : Valuation τ sig (Elt F) := after hostOps2_1 (after hostOps2 V)

theorem pre_src (V : Valuation τ sig (Elt F)) : pre V (Proc.devRef .tc main_v3) = srcOf (V (Proc.devRef .tc main_arg1)) := by
  read_stage
  unfold srcOf
  rfl

theorem pre_dst (V : Valuation τ sig (Elt F)) : pre V (Proc.devRef .tc main_v6) = dstOf (V (Proc.devRef .tc main_arg1)) := by
  read_stage
  unfold dstOf
  rfl

theorem pre_norm (V : Valuation τ sig (Elt F)) :
    pre V (Proc.devRef .tc main_v29) = normOf (srcOf (V (Proc.devRef .tc main_arg1))) (dstOf (V (Proc.devRef .tc main_arg1))) := by
  read_stage
  unfold normOf dinvOf degOf wrap srcOf dstOf
  rfl

theorem pre_arg0 (V : Valuation τ sig (Elt F)) : pre V (Proc.devRef .tc main_arg0) = (V (Proc.devRef .tc main_arg0)) := by
  read_stage
theorem pre_arg2 (V : Valuation τ sig (Elt F)) : pre V (Proc.devRef .tc main_arg2) = (V (Proc.devRef .tc main_arg2)) := by
  read_stage
theorem pre_arg3 (V : Valuation τ sig (Elt F)) : pre V (Proc.devRef .tc main_arg3) = (V (Proc.devRef .tc main_arg3)) := by
  read_stage
theorem pre_arg4 (V : Valuation τ sig (Elt F)) : pre V (Proc.devRef .tc main_arg4) = (V (Proc.devRef .tc main_arg4)) := by
  read_stage
theorem pre_arg5 (V : Valuation τ sig (Elt F)) : pre V (Proc.devRef .tc main_arg5) = (V (Proc.devRef .tc main_arg5)) := by
  read_stage

theorem mid_out (V : Valuation τ sig (Elt F)) :
    mid V (Proc.devRef .tc main_v47) = tail1 (V (Proc.devRef .tc main_v30)) (V (Proc.devRef .tc main_v3)) (V (Proc.devRef .tc main_v6)) (V (Proc.devRef .tc main_v29)) (V (Proc.devRef .tc main_arg3)) := by
  read_stage
  unfold tail1 wrap
  rfl

theorem mid_v3 (V : Valuation τ sig (Elt F)) : mid V (Proc.devRef .tc main_v3) = (V (Proc.devRef .tc main_v3)) := by
  read_stage
theorem mid_v6 (V : Valuation τ sig (Elt F)) : mid V (Proc.devRef .tc main_v6) = (V (Proc.devRef .tc main_v6)) := by
  read_stage
theorem mid_v29 (V : Valuation τ sig (Elt F)) : mid V (Proc.devRef .tc main_v29) = (V (Proc.devRef .tc main_v29)) := by
  read_stage
theorem mid_arg4 (V : Valuation τ sig (Elt F)) : mid V (Proc.devRef .tc main_arg4) = (V (Proc.devRef .tc main_arg4)) := by
  read_stage
theorem mid_arg5 (V : Valuation τ sig (Elt F)) : mid V (Proc.devRef .tc main_arg5) = (V (Proc.devRef .tc main_arg5)) := by
  read_stage

theorem fin_out (V : Valuation τ sig (Elt F)) :
    fin V (Proc.devRef .tc main_v65) = tail2 (V (Proc.devRef .tc main_v48)) (V (Proc.devRef .tc main_v3)) (V (Proc.devRef .tc main_v6)) (V (Proc.devRef .tc main_v29)) (V (Proc.devRef .tc main_arg5)) := by
  read_stage
  unfold tail2 logSoftmax shifted wrap
  rfl

end Cert.Gcn.KFold

end
-- ==== Proof.LibPlainDot.lean ====
/-
  A plain matrix product, M×K by K×N, at the ideal values, read at an index as the sum over the contracted coordinate of
  the products of the operands' entries — for the vector unit's `tpu.matmul` into the zero accumulator and for the host's
  `dot_general` alike. The contraction has one axis, of extent K: its index is that one coordinate (`contrE`), the left
  operand's index at (r, c) and k is (r, k), the right operand's is (k, c).
-/
import Idealize.ShloMosaic.PureOps.Ideal.Laws
import Idealize.ShloMosaic.Lib.ValueIdx

noncomputable section

open scoped BigOperators

namespace Idealize.ShloMosaic.PlainDot

open Idealize.ShloMosaic Idealize.ShloMosaic.ValueIdx

variable {M K N : Nat}

/-- The one-axis contraction index of a plain product is its coordinate. -/
def contrE (M K N : Nat) : (DotDims.plain M K N).contr.Idx ≃ Fin K :=
  contrEquiv1 (DotDims.plain M K N) K rfl rfl

theorem contrE_symm_val (k : Fin K) :
    ((contrE M K N).symm k ⟨0, by have h : (DotDims.plain M K N).contr.rank = 1 := rfl; omega⟩ : ℕ) = k.val :=
  contrEquiv1_symm_val (DotDims.plain M K N) K rfl rfl k

/-- The left operand is read at (row of the result, contracted coordinate). -/
theorem lhsIdx_eq (r : Fin M) (c : Fin N) (k : Fin K) :
    (DotDims.plain M K N).lhsIdx (ix2 r c) ((contrE M K N).symm k) = ix2 r k := by
  funext a
  apply Fin.ext
  match a with
  | ⟨0, _⟩ => rfl
  | ⟨1, _⟩ => exact ((DotDims.plain M K N).lhsIdx_val_of_single (cl := 1) rfl (ix2 r c) _).trans (contrE_symm_val k)

/-- The right operand is read at (contracted coordinate, column of the result). -/
theorem rhsIdx_eq (r : Fin M) (c : Fin N) (k : Fin K) :
    (DotDims.plain M K N).rhsIdx (ix2 r c) ((contrE M K N).symm k) = ix2 k c := by
  funext a
  apply Fin.ext
  match a with
  | ⟨0, _⟩ => exact ((DotDims.plain M K N).rhsIdx_val_of_single (cr := 0) rfl (ix2 r c) _).trans (contrE_symm_val k)
  | ⟨1, _⟩ => rfl

/-- The sum over the contraction index of a plain product, re-indexed by the contracted coordinate. -/
theorem sum_contr (f : (⟨2, ![M, K]⟩ : Shape).Idx → EReal) (g : (⟨2, ![K, N]⟩ : Shape).Idx → EReal) (r : Fin M) (c : Fin N) :
    (∑ k : (DotDims.plain M K N).contr.Idx, f ((DotDims.plain M K N).lhsIdx (ix2 r c) k) * g ((DotDims.plain M K N).rhsIdx (ix2 r c) k))
      = ∑ k : Fin K, f (ix2 r k) * g (ix2 k c) := by
  rw [← Equiv.sum_comp (contrE M K N).symm]
  exact Finset.sum_congr rfl fun k _ => by rw [lhsIdx_eq, rhsIdx_eq]

/-- `tpu.matmul` into the zero accumulator, at (r, c). -/
theorem matmul_zero_apply {φ₁ φ₂ : FTy} (prec : Option ContractPrecision)
    (x : FVec Ideal ⟨2, ![M, K]⟩ φ₁) (w : FVec Ideal ⟨2, ![K, N]⟩ φ₂) (r : Fin M) (c : Fin N) :
    FloatOps.matmul (DotDims.plain M K N) prec x w (constant (⟨2, ![M, N]⟩ : Shape) .f32 0x00000000#32) (ix2 r c)
      = ∑ k : Fin K, x (ix2 r k) * w (ix2 k c) :=
  (Ideal.matmul_constant_zero_apply (DotDims.plain M K N) prec x w (ix2 r c)).trans (sum_contr x w r c)

/-- The host's `dot_general`, at (r, c). -/
theorem dotGeneral_apply {φ₁ φ₂ : FTy} (prec : Option ContractPrecision) (sched : HostSchedule)
    (x : FVec Ideal ⟨2, ![M, K]⟩ φ₁) (w : FVec Ideal ⟨2, ![K, N]⟩ φ₂) (r : Fin M) (c : Fin N) :
    FloatOps.dotGeneral (DotDims.plain M K N) prec sched x w (ix2 r c) = ∑ k : Fin K, x (ix2 r k) * w (ix2 k c) :=
  (Ideal.dotGeneral_apply (DotDims.plain M K N) prec sched x w (ix2 r c)).trans (sum_contr x w r c)

end Idealize.ShloMosaic.PlainDot

end
-- ==== Proof.LibDense.lean ====
/-
  The product of an M×K array and a K×N array of extended reals as one function of the result's index: the entry at
  (r, c) is the sum over k of A(r, k) · B(k, c). The host's `dot_general` of the plain M×K by K×N contraction is this
  function, and so is, entry by entry, the vector unit's `tpu.matmul` of the same contraction into a zero accumulator.
-/
import proofs.«168640_j2147483648538_1_alg».proof.Proof.LibPlainDot

noncomputable section

open scoped BigOperators

namespace Cert.Dense

open Idealize.ShloMosaic Idealize.ShloMosaic.ValueIdx

variable {M K N : Nat}

/-- The matrix product, entry by entry. -/
def dense (M K N : Nat) (A : FVec Ideal ⟨2, ![M, K]⟩ .f32) (B : FVec Ideal ⟨2, ![K, N]⟩ .f32) :
    FVec Ideal ⟨2, ![M, N]⟩ .f32 :=
  fun i => ∑ k : Fin K, A (ix2 (i 0) k) * B (ix2 k (i 1))

/-- The product at an index whose two coordinates are known. -/
theorem dense_at (A : FVec Ideal ⟨2, ![M, K]⟩ .f32) (B : FVec Ideal ⟨2, ![K, N]⟩ .f32)
    (i : (⟨2, ![M, N]⟩ : Shape).Idx) (r : Fin M) (c : Fin N) (h0 : (i 0).val = r.val) (h1 : (i 1).val = c.val) :
    dense M K N A B i = ∑ k : Fin K, A (ix2 r k) * B (ix2 k c) := by
  obtain rfl : i = ix2 r c := funext fun a => Fin.ext (match a with | ⟨0, _⟩ => h0 | ⟨1, _⟩ => h1)
  rfl

/-- The host's `dot_general` of the plain contraction is the product. -/
theorem dotGeneral_eq_dense (prec : Option ContractPrecision) (sched : HostSchedule)
    (A : FVec Ideal ⟨2, ![M, K]⟩ .f32) (B : FVec Ideal ⟨2, ![K, N]⟩ .f32) :
    FloatOps.dotGeneral (DotDims.plain M K N) prec sched A B = dense M K N A B := by
  funext i
  obtain ⟨r, c, rfl⟩ : ∃ (r : Fin M) (c : Fin N), i = ix2 r c := ⟨i 0, i 1, eq_ix2 i⟩
  exact PlainDot.dotGeneral_apply prec sched A B r c

/-- The vector unit's product into the zero accumulator, at an index whose two coordinates are known, of operands of
    any float formats (a change of format is the identity on extended reals). -/
theorem matmul_zero_at {φ₁ φ₂ : FTy} (prec : Option ContractPrecision)
    (x : FVec Ideal ⟨2, ![M, K]⟩ φ₁) (w : FVec Ideal ⟨2, ![K, N]⟩ φ₂)
    (j : (⟨2, ![M, N]⟩ : Shape).Idx) (r : Fin M) (c : Fin N) (h0 : (j 0).val = r.val) (h1 : (j 1).val = c.val) :
    FloatOps.matmul (DotDims.plain M K N) prec x w (constant (⟨2, ![M, N]⟩ : Shape) .f32 0x00000000#32) j
      = ∑ k : Fin K, x (ix2 r k) * w (ix2 k c) := by
  obtain rfl : j = ix2 r c := funext fun a => Fin.ext (match a with | ⟨0, _⟩ => h0 | ⟨1, _⟩ => h1)
  exact PlainDot.matmul_zero_apply prec x w r c

end Cert.Dense

end
-- ==== Proof.Mat0.lean ====
/-
  Region 0 of the idealized kernel program is the dense product of its two operand arrays. The grid has 25 points;
  point t reads rows 4000·t … 4000·t + 3999 of the left operand and the whole right operand, and writes back rows
  4000·t … 4000·t + 3999 of the result. What the body leaves at entry (r, q) of its block is the vector unit's product of the two
  loaded blocks (rounded operands are the operands themselves over the extended reals) into a zero accumulator: the
  sum over k of left(r, k) · right(k, q). That is entry (4000·t + r, q) of the product of the whole arrays, every row lies in
  exactly one point's block, and so the result array ends holding the product, whatever the region's entry contents.
-/
import proofs.«168640_j2147483648538_1_alg».proof.Proof.Gen.KernelIdeal.Frame
import proofs.«168640_j2147483648538_1_alg».proof.Proof.LibDense
import Idealize.ShloMosaic.Lib.Pipeline.Value

set_option maxRecDepth 16384

noncomputable section

open scoped BigOperators

namespace Cert.Gcn.Mat0

open Cert.KernelIdeal Cert.KernelIdeal.Gen
open Idealize.ShloMosaic Idealize.ShloMosaic.TcCoe Idealize.ShloMosaic.ValueIdx Idealize.SL.Sem
open Idealize.ShloMosaic.Pipeline (Dat)
open Cert.Dense

variable (V : (c : Dev nD) → (b : Ref sig .tc) → Buf (Elt Ideal) ((c : Thread nD τ).loc b))

theorem hz : (![0, 0] : Fin 2 → Nat) = fun _ => 0 := funext fun a => by fin_cases a <;> rfl

/-- The product of the region's two operand arrays as it finds them. -/
def prod (c : Dev nD) : Buf (Elt Ideal) ((c : Thread nD τ).loc main_v30) :=
  dense 100000 500 16 (V c main_arg0) (V c main_arg2)

/-- What the body leaves at an entry of the output block, from the two loaded blocks. -/
theorem out_at (x0 : Vec Ideal S4000x500 .f32) (x1 : Vec Ideal S500x16 .f32) (j : S4000x16.Idx) (r : Fin 4000) (q : Fin 16)
    (h0 : (j 0).val = r.val) (h1 : (j 1).val = q.val) :
    out0_2 (F := Ideal) x0 x1 j = ∑ k : Fin 500, x0 (ix2 r k) * x1 (ix2 k q) := by
  unfold out0_2
  rw [View.canon_unit_zero hz]
  simp only [View.ld_unit_zero (S := S4000x500) hz, View.ld_unit_zero (S := S500x16) hz]
  unfold k0_pay1
  exact matmul_zero_at (M := 4000) (K := 500) (N := 16) none _ _ j r q h0 h1

/-- Where each window's block sits at a grid point. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The left operand's block at point t is rows 4000·t … of the array. -/
theorem lblk_at (c : Dev nD) (t : Fin cfg0.N) (r : Fin 4000) (k : Fin 500) (r' : Fin 100000) (hr : r'.val = 4000 * t.val + r.val) :
    (iblk0 V c 0 t : Vec Ideal S4000x500 .f32) (ix2 r k) = (V c main_arg0 : S100000x500.Idx → EReal) (ix2 r' k) := by
  obtain ⟨e00, e01, -, -, -, -⟩ := idx_facts t
  unfold iblk0
  rw [View.read_apply]
  show V c main_arg0 _ = V c main_arg0 _
  refine congrArg _ ?_
  funext a
  apply Fin.ext
  match a with
  | ⟨0, _⟩ => show win0_0.index t (0 : Fin 2) * 4000 + 1 * r.val = r'.val; rw [e00, hr]; omega
  | ⟨1, _⟩ => show win0_0.index t (1 : Fin 2) * 500 + 1 * k.val = k.val; rw [e01]; omega

/-- The right operand's block at every point is the whole array. -/
theorem rblk_at (c : Dev nD) (t : Fin cfg0.N) (k : Fin 500) (q : Fin 16) :
    (iblk0 V c 1 t : Vec Ideal S500x16 .f32) (ix2 k q) = (V c main_arg2 : S500x16.Idx → EReal) (ix2 k q) := by
  obtain ⟨-, -, e10, e11, -, -⟩ := idx_facts t
  unfold iblk0
  rw [View.read_apply]
  show V c main_arg2 _ = V c main_arg2 _
  refine congrArg _ ?_
  funext a
  apply Fin.ext
  match a with
  | ⟨0, _⟩ => show win0_1.index t (0 : Fin 2) * 500 + 1 * k.val = k.val; rw [e10]; omega
  | ⟨1, _⟩ => show win0_1.index t (1 : Fin 2) * 16 + 1 * q.val = q.val; rw [e11]; omega

/-- What point t writes back is its block of the product. -/
theorem flushed_eq (c : Dev nD) (t : Fin cfg0.N) :
    (dat0 V c).flushed 2 t = ((cfg0.win 2).blk t).view.read (Elt Ideal) (prod V c) := by
  show (cfg0.win 2).cut (grid0.coords t) ((dat0 V c).after 2 t) = _
  rw [after0_2]
  obtain ⟨-, -, -, -, e20, e21⟩ := idx_facts t
  have ht : t.val < 25 := Nat.lt_of_lt_of_eq (m := grid0.N) t.isLt N_0
  funext j
  have hr : (j 0).val < 4000 := (j 0).isLt
  have hq : (j 1).val < 16 := (j 1).isLt
  show out0_2 (iblk0 V c 0 t) (iblk0 V c 1 t) j = prod V c (((cfg0.win 2).blk t).view.emb j)
  refine (out_at (iblk0 V c 0 t) (iblk0 V c 1 t) j ⟨(j 0).val, hr⟩ ⟨(j 1).val, hq⟩ rfl rfl).trans ?_
  refine Eq.trans ?_ (dense_at (V c main_arg0) (V c main_arg2) (((cfg0.win 2).blk t).view.emb j)
    ⟨4000 * t.val + (j 0).val, by omega⟩ ⟨(j 1).val, hq⟩
    (by show win0_2.index t (0 : Fin 2) * 4000 + 1 * (j 0).val = 4000 * t.val + (j 0).val; rw [e20]; omega)
    (by show win0_2.index t (1 : Fin 2) * 16 + 1 * (j 1).val = (j 1).val; rw [e21]; omega)).symm
  refine Finset.sum_congr rfl fun k _ => ?_
  rw [lblk_at V c t ⟨(j 0).val, hr⟩ k ⟨4000 * t.val + (j 0).val, by omega⟩ rfl, rblk_at V c t k ⟨(j 1).val, hq⟩]

/-- An index of the result array is in point t's block iff each coordinate is in the block's range on its axis. -/
theorem mem_blk (t : Fin cfg0.N) (i : S100000x16.Idx) :
    i ∈ ((cfg0.win 2).blk t).view.set ↔ ∀ a : Fin 2, win0_2.index t a * S4000x16.size a ≤ (i a).val ∧ (i a).val < win0_2.index t a * S4000x16.size a + S4000x16.size a := by
  show i ∈ ((View.whole main_v30).slice (win0_2.rect t)).set ↔ _
  rw [View.set_slice_whole, Rect.mem_set_unit]
  exact Iff.rfl

/-- Every row of the result lies in the block of the point numbered by the row's quotient by 4000. -/
theorem cover (i : S100000x16.Idx) : ∃ t : Fin cfg0.N, (cfg0.win 2).flush t = true ∧ i ∈ ((cfg0.win 2).blk t).view.set := by
  have hi0 : (i 0).val < 100000 := (i 0).isLt
  have hi1 : (i 1).val < 16 := (i 1).isLt
  have hN : cfg0.N = 25 := N_0
  refine ⟨⟨(i 0).val / 4000, by rw [hN]; omega⟩, flush0_2 _, ?_⟩
  obtain ⟨-, -, -, -, e20, e21⟩ := idx_facts ⟨(i 0).val / 4000, by rw [hN]; omega⟩
  rw [mem_blk]
  intro a
  match a with
  | ⟨0, _⟩ =>
    show win0_2.index _ (0 : Fin 2) * 4000 ≤ (i 0).val ∧ (i 0).val < win0_2.index _ (0 : Fin 2) * 4000 + 4000
    rw [e20]; show (i 0).val / 4000 * 4000 ≤ (i 0).val ∧ (i 0).val < (i 0).val / 4000 * 4000 + 4000; omega
  | ⟨1, _⟩ =>
    show win0_2.index _ (1 : Fin 2) * 16 ≤ (i 1).val ∧ (i 1).val < win0_2.index _ (1 : Fin 2) * 16 + 16
    rw [e21]; omega

/-- The result array after the region is the product of the operand arrays as the region found them. -/
theorem final (c : Dev nD) : (dat0 V c).arrAt 2 cfg0.N = prod V c :=
  (dat0 V c).arrAt_eq_of_cover 2 (prod V c) (fun t _ => flushed_eq V c t) (cover)

end Cert.Gcn.Mat0

end
-- ==== Proof.Mat1.lean ====
/-
  Region 1 of the idealized kernel program is the dense product of its two operand arrays. The grid has 25 points;
  point t reads rows 4000·t … 4000·t + 3999 of the left operand and the whole right operand, and writes back rows
  4000·t … 4000·t + 3999 of the result. What the body leaves at entry (r, q) of its block is the vector unit's product of the two
  loaded blocks (rounded operands are the operands themselves over the extended reals) into a zero accumulator: the
  sum over k of left(r, k) · right(k, q). That is entry (4000·t + r, q) of the product of the whole arrays, every row lies in
  exactly one point's block, and so the result array ends holding the product, whatever the region's entry contents.
-/
import proofs.«168640_j2147483648538_1_alg».proof.Proof.Gen.KernelIdeal.Frame
import proofs.«168640_j2147483648538_1_alg».proof.Proof.LibDense
import Idealize.ShloMosaic.Lib.Pipeline.Value

set_option maxRecDepth 16384

noncomputable section

open scoped BigOperators

namespace Cert.Gcn.Mat1

open Cert.KernelIdeal Cert.KernelIdeal.Gen
open Idealize.ShloMosaic Idealize.ShloMosaic.TcCoe Idealize.ShloMosaic.ValueIdx Idealize.SL.Sem
open Idealize.ShloMosaic.Pipeline (Dat)
open Cert.Dense

variable (V : (c : Dev nD) → (b : Ref sig .tc) → Buf (Elt Ideal) ((c : Thread nD τ).loc b))

theorem hz : (![0, 0] : Fin 2 → Nat) = fun _ => 0 := funext fun a => by fin_cases a <;> rfl

/-- The product of the region's two operand arrays as it finds them. -/
def prod (c : Dev nD) : Buf (Elt Ideal) ((c : Thread nD τ).loc main_v48) :=
  dense 100000 16 7 (V c main_v47) (V c main_arg4)

/-- What the body leaves at an entry of the output block, from the two loaded blocks. -/
theorem out_at (x0 : Vec Ideal S4000x16 .f32) (x1 : Vec Ideal S16x7 .f32) (j : S4000x7.Idx) (r : Fin 4000) (q : Fin 7)
    (h0 : (j 0).val = r.val) (h1 : (j 1).val = q.val) :
    out1_2 (F := Ideal) x0 x1 j = ∑ k : Fin 16, x0 (ix2 r k) * x1 (ix2 k q) := by
  unfold out1_2
  rw [View.canon_unit_zero hz]
  simp only [View.ld_unit_zero (S := S4000x16) hz, View.ld_unit_zero (S := S16x7) hz]
  unfold k1_pay1
  rw [shapeCast_self]
  exact matmul_zero_at (M := 4000) (K := 16) (N := 7) none _ _ j r q h0 h1

/-- Where each window's block sits at a grid point. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The left operand's block at point t is rows 4000·t … of the array. -/
theorem lblk_at (c : Dev nD) (t : Fin cfg1.N) (r : Fin 4000) (k : Fin 16) (r' : Fin 100000) (hr : r'.val = 4000 * t.val + r.val) :
    (iblk1 V c 0 t : Vec Ideal S4000x16 .f32) (ix2 r k) = (V c main_v47 : S100000x16.Idx → EReal) (ix2 r' k) := by
  obtain ⟨e00, e01, -, -, -, -⟩ := idx_facts t
  unfold iblk1
  rw [View.read_apply]
  show V c main_v47 _ = V c main_v47 _
  refine congrArg _ ?_
  funext a
  apply Fin.ext
  match a with
  | ⟨0, _⟩ => show win1_0.index t (0 : Fin 2) * 4000 + 1 * r.val = r'.val; rw [e00, hr]; omega
  | ⟨1, _⟩ => show win1_0.index t (1 : Fin 2) * 16 + 1 * k.val = k.val; rw [e01]; omega

/-- The right operand's block at every point is the whole array. -/
theorem rblk_at (c : Dev nD) (t : Fin cfg1.N) (k : Fin 16) (q : Fin 7) :
    (iblk1 V c 1 t : Vec Ideal S16x7 .f32) (ix2 k q) = (V c main_arg4 : S16x7.Idx → EReal) (ix2 k q) := by
  obtain ⟨-, -, e10, e11, -, -⟩ := idx_facts t
  unfold iblk1
  rw [View.read_apply]
  show V c main_arg4 _ = V c main_arg4 _
  refine congrArg _ ?_
  funext a
  apply Fin.ext
  match a with
  | ⟨0, _⟩ => show win1_1.index t (0 : Fin 2) * 16 + 1 * k.val = k.val; rw [e10]; omega
  | ⟨1, _⟩ => show win1_1.index t (1 : Fin 2) * 7 + 1 * q.val = q.val; rw [e11]; omega

/-- What point t writes back is its block of the product. -/
theorem flushed_eq (c : Dev nD) (t : Fin cfg1.N) :
    (dat1 V c).flushed 2 t = ((cfg1.win 2).blk t).view.read (Elt Ideal) (prod V c) := by
  show (cfg1.win 2).cut (grid1.coords t) ((dat1 V c).after 2 t) = _
  rw [after1_2]
  obtain ⟨-, -, -, -, e20, e21⟩ := idx_facts t
  have ht : t.val < 25 := Nat.lt_of_lt_of_eq (m := grid1.N) t.isLt N_1
  funext j
  have hr : (j 0).val < 4000 := (j 0).isLt
  have hq : (j 1).val < 7 := (j 1).isLt
  show out1_2 (iblk1 V c 0 t) (iblk1 V c 1 t) j = prod V c (((cfg1.win 2).blk t).view.emb j)
  refine (out_at (iblk1 V c 0 t) (iblk1 V c 1 t) j ⟨(j 0).val, hr⟩ ⟨(j 1).val, hq⟩ rfl rfl).trans ?_
  refine Eq.trans ?_ (dense_at (V c main_v47) (V c main_arg4) (((cfg1.win 2).blk t).view.emb j)
    ⟨4000 * t.val + (j 0).val, by omega⟩ ⟨(j 1).val, hq⟩
    (by show win1_2.index t (0 : Fin 2) * 4000 + 1 * (j 0).val = 4000 * t.val + (j 0).val; rw [e20]; omega)
    (by show win1_2.index t (1 : Fin 2) * 7 + 1 * (j 1).val = (j 1).val; rw [e21]; omega)).symm
  refine Finset.sum_congr rfl fun k _ => ?_
  rw [lblk_at V c t ⟨(j 0).val, hr⟩ k ⟨4000 * t.val + (j 0).val, by omega⟩ rfl, rblk_at V c t k ⟨(j 1).val, hq⟩]

/-- An index of the result array is in point t's block iff each coordinate is in the block's range on its axis. -/
theorem mem_blk (t : Fin cfg1.N) (i : S100000x7.Idx) :
    i ∈ ((cfg1.win 2).blk t).view.set ↔ ∀ a : Fin 2, win1_2.index t a * S4000x7.size a ≤ (i a).val ∧ (i a).val < win1_2.index t a * S4000x7.size a + S4000x7.size a := by
  show i ∈ ((View.whole main_v48).slice (win1_2.rect t)).set ↔ _
  rw [View.set_slice_whole, Rect.mem_set_unit]
  exact Iff.rfl

/-- Every row of the result lies in the block of the point numbered by the row's quotient by 4000. -/
theorem cover (i : S100000x7.Idx) : ∃ t : Fin cfg1.N, (cfg1.win 2).flush t = true ∧ i ∈ ((cfg1.win 2).blk t).view.set := by
  have hi0 : (i 0).val < 100000 := (i 0).isLt
  have hi1 : (i 1).val < 7 := (i 1).isLt
  have hN : cfg1.N = 25 := N_1
  refine ⟨⟨(i 0).val / 4000, by rw [hN]; omega⟩, flush1_2 _, ?_⟩
  obtain ⟨-, -, -, -, e20, e21⟩ := idx_facts ⟨(i 0).val / 4000, by rw [hN]; omega⟩
  rw [mem_blk]
  intro a
  match a with
  | ⟨0, _⟩ =>
    show win1_2.index _ (0 : Fin 2) * 4000 ≤ (i 0).val ∧ (i 0).val < win1_2.index _ (0 : Fin 2) * 4000 + 4000
    rw [e20]; show (i 0).val / 4000 * 4000 ≤ (i 0).val ∧ (i 0).val < (i 0).val / 4000 * 4000 + 4000; omega
  | ⟨1, _⟩ =>
    show win1_2.index _ (1 : Fin 2) * 7 ≤ (i 1).val ∧ (i 1).val < win1_2.index _ (1 : Fin 2) * 7 + 7
    rw [e21]; omega

/-- The result array after the region is the product of the operand arrays as the region found them. -/
theorem final (c : Dev nD) : (dat1 V c).arrAt 2 cfg1.N = prod V c :=
  (dat1 V c).arrAt_eq_of_cover 2 (prod V c) (fun t _ => flushed_eq V c t) (cover)

end Cert.Gcn.Mat1

end
-- ==== Proof.KernelValue.lean ====
/-
  The idealized kernel program's result as a function of its six arguments. Reading the fold through the program from
  the end: the result is the second layer's aggregation, bias and log-softmax applied to what the second region leaves,
  which is the dense product of the first layer's output with the second weight; the first layer's output is the
  aggregation, bias and rectifier applied to what the first region leaves, the dense product of the features with the
  first weight. The endpoints and weights of the messages are computed once, before the first region, and no later
  stage overwrites them or the arguments.
-/
import proofs.«168640_j2147483648538_1_alg».proof.Proof.KernelRun
import proofs.«168640_j2147483648538_1_alg».proof.Proof.KFolds
import proofs.«168640_j2147483648538_1_alg».proof.Proof.Mat0
import proofs.«168640_j2147483648538_1_alg».proof.Proof.Mat1

set_option maxRecDepth 16384

noncomputable section

namespace Cert.Gcn.KVal

open Cert.KernelIdeal Cert.KernelIdeal.Gen
open Idealize.ShloMosaic Idealize.ShloMosaic.TcCoe Idealize.SL.Sem Idealize.ShloMosaic.StableHlo
open Cert.Gcn.K Cert.Dense

variable (m : (ℓ : Loc nD τ sig) → Buf (Elt Ideal) ℓ) (ρ : Dev nD → PrngReg)

/-- The result as a function of the arguments. -/
def result (x : (⟨S100000x500, .f32⟩ : BufTy).Contents (Elt Ideal)) (e : (⟨S2x3200000, .i32⟩ : BufTy).Contents (Elt Ideal))
    (w1 : (⟨S500x16, .f32⟩ : BufTy).Contents (Elt Ideal)) (b1 : (⟨S16, .f32⟩ : BufTy).Contents (Elt Ideal))
    (w2 : (⟨S16x7, .f32⟩ : BufTy).Contents (Elt Ideal)) (b2 : (⟨S7, .f32⟩ : BufTy).Contents (Elt Ideal)) :
    (⟨S100000x7, .f32⟩ : BufTy).Contents (Elt Ideal) :=
  tail2
    (dense 100000 16 7
      (tail1 (dense 100000 500 16 x w1) (srcOf e) (dstOf e) (normOf (srcOf e) (dstOf e)) b1) w2)
    (srcOf e) (dstOf e) (normOf (srcOf e) (dstOf e)) b2

/-! ## Before the first region -/

theorem W3_src (c : Dev nD) : W3 m ρ c (Proc.devRef .tc main_v3) = srcOf (m ((c.tc : Thread nD τ).loc main_arg1)) := KFold.pre_src (W0 m ρ c)
theorem W3_dst (c : Dev nD) : W3 m ρ c (Proc.devRef .tc main_v6) = dstOf (m ((c.tc : Thread nD τ).loc main_arg1)) := KFold.pre_dst (W0 m ρ c)
theorem W3_norm (c : Dev nD) : W3 m ρ c (Proc.devRef .tc main_v29) = normOf (srcOf (m ((c.tc : Thread nD τ).loc main_arg1))) (dstOf (m ((c.tc : Thread nD τ).loc main_arg1))) :=
  KFold.pre_norm (W0 m ρ c)
theorem W3_arg0 (c : Dev nD) : W3 m ρ c (Proc.devRef .tc main_arg0) = (m ((c.tc : Thread nD τ).loc main_arg0)) := KFold.pre_arg0 (W0 m ρ c)
theorem W3_arg2 (c : Dev nD) : W3 m ρ c (Proc.devRef .tc main_arg2) = (m ((c.tc : Thread nD τ).loc main_arg2)) := KFold.pre_arg2 (W0 m ρ c)
theorem W3_arg3 (c : Dev nD) : W3 m ρ c (Proc.devRef .tc main_arg3) = (m ((c.tc : Thread nD τ).loc main_arg3)) := KFold.pre_arg3 (W0 m ρ c)
theorem W3_arg4 (c : Dev nD) : W3 m ρ c (Proc.devRef .tc main_arg4) = (m ((c.tc : Thread nD τ).loc main_arg4)) := KFold.pre_arg4 (W0 m ρ c)
theorem W3_arg5 (c : Dev nD) : W3 m ρ c (Proc.devRef .tc main_arg5) = (m ((c.tc : Thread nD τ).loc main_arg5)) := KFold.pre_arg5 (W0 m ρ c)

/-! ## The first region, and up to the second -/

theorem W4_out (c : Dev nD) : W4 m ρ c (Proc.devRef .tc main_v30) = dense 100000 500 16 (m ((c.tc : Thread nD τ).loc main_arg0)) (m ((c.tc : Thread nD τ).loc main_arg2)) :=
  ((W4_arr m ρ c 2).trans (Mat0.final (V3 m ρ) c)).trans
    (congrArg₂ (dense 100000 500 16) (W3_arg0 m ρ c) (W3_arg2 m ρ c))

theorem W4_v3 (c : Dev nD) : W4 m ρ c (Proc.devRef .tc main_v3) = W3 m ρ c (Proc.devRef .tc main_v3) := W4_of_ne m ρ c main_v3 (by decide)
theorem W4_v6 (c : Dev nD) : W4 m ρ c (Proc.devRef .tc main_v6) = W3 m ρ c (Proc.devRef .tc main_v6) := W4_of_ne m ρ c main_v6 (by decide)
theorem W4_v29 (c : Dev nD) : W4 m ρ c (Proc.devRef .tc main_v29) = W3 m ρ c (Proc.devRef .tc main_v29) := W4_of_ne m ρ c main_v29 (by decide)
theorem W4_arg3 (c : Dev nD) : W4 m ρ c (Proc.devRef .tc main_arg3) = W3 m ρ c (Proc.devRef .tc main_arg3) := W4_of_ne m ρ c main_arg3 (by decide)
theorem W4_arg4 (c : Dev nD) : W4 m ρ c (Proc.devRef .tc main_arg4) = W3 m ρ c (Proc.devRef .tc main_arg4) := W4_of_ne m ρ c main_arg4 (by decide)
theorem W4_arg5 (c : Dev nD) : W4 m ρ c (Proc.devRef .tc main_arg5) = W3 m ρ c (Proc.devRef .tc main_arg5) := W4_of_ne m ρ c main_arg5 (by decide)

theorem W6_out (c : Dev nD) : W6 m ρ c (Proc.devRef .tc main_v47)
    = tail1 (dense 100000 500 16 (m ((c.tc : Thread nD τ).loc main_arg0)) (m ((c.tc : Thread nD τ).loc main_arg2))) (srcOf (m ((c.tc : Thread nD τ).loc main_arg1))) (dstOf (m ((c.tc : Thread nD τ).loc main_arg1)))
        (normOf (srcOf (m ((c.tc : Thread nD τ).loc main_arg1))) (dstOf (m ((c.tc : Thread nD τ).loc main_arg1)))) (m ((c.tc : Thread nD τ).loc main_arg3)) := by
  refine (KFold.mid_out (W4 m ρ c)).trans ?_
  rw [W4_out, W4_v3, W4_v6, W4_v29, W4_arg3, W3_src, W3_dst, W3_norm, W3_arg3]

theorem W6_v3 (c : Dev nD) : W6 m ρ c (Proc.devRef .tc main_v3) = W3 m ρ c (Proc.devRef .tc main_v3) :=
  (KFold.mid_v3 (W4 m ρ c)).trans (W4_v3 m ρ c)
theorem W6_v6 (c : Dev nD) : W6 m ρ c (Proc.devRef .tc main_v6) = W3 m ρ c (Proc.devRef .tc main_v6) :=
  (KFold.mid_v6 (W4 m ρ c)).trans (W4_v6 m ρ c)
theorem W6_v29 (c : Dev nD) : W6 m ρ c (Proc.devRef .tc main_v29) = W3 m ρ c (Proc.devRef .tc main_v29) :=
  (KFold.mid_v29 (W4 m ρ c)).trans (W4_v29 m ρ c)
theorem W6_arg4 (c : Dev nD) : W6 m ρ c (Proc.devRef .tc main_arg4) = W3 m ρ c (Proc.devRef .tc main_arg4) :=
  (KFold.mid_arg4 (W4 m ρ c)).trans (W4_arg4 m ρ c)
theorem W6_arg5 (c : Dev nD) : W6 m ρ c (Proc.devRef .tc main_arg5) = W3 m ρ c (Proc.devRef .tc main_arg5) :=
  (KFold.mid_arg5 (W4 m ρ c)).trans (W4_arg5 m ρ c)

/-! ## The second region, and up to the return -/

theorem W7_out (c : Dev nD) : W7 m ρ c (Proc.devRef .tc main_v48)
    = dense 100000 16 7 (W6 m ρ c (Proc.devRef .tc main_v47)) (m ((c.tc : Thread nD τ).loc main_arg4)) :=
  ((W7_arr m ρ c 2).trans (Mat1.final (V6 m ρ) c)).trans
    (congrArg₂ (dense 100000 16 7) rfl ((W6_arg4 m ρ c).trans (W3_arg4 m ρ c)))

theorem W7_v3 (c : Dev nD) : W7 m ρ c (Proc.devRef .tc main_v3) = W3 m ρ c (Proc.devRef .tc main_v3) :=
  (W7_of_ne m ρ c main_v3 (by decide)).trans (W6_v3 m ρ c)
theorem W7_v6 (c : Dev nD) : W7 m ρ c (Proc.devRef .tc main_v6) = W3 m ρ c (Proc.devRef .tc main_v6) :=
  (W7_of_ne m ρ c main_v6 (by decide)).trans (W6_v6 m ρ c)
theorem W7_v29 (c : Dev nD) : W7 m ρ c (Proc.devRef .tc main_v29) = W3 m ρ c (Proc.devRef .tc main_v29) :=
  (W7_of_ne m ρ c main_v29 (by decide)).trans (W6_v29 m ρ c)
theorem W7_arg5 (c : Dev nD) : W7 m ρ c (Proc.devRef .tc main_arg5) = W3 m ρ c (Proc.devRef .tc main_arg5) :=
  (W7_of_ne m ρ c main_arg5 (by decide)).trans (W6_arg5 m ρ c)

/-- The result's buffer at the return holds `result` of the arguments. -/
theorem W9_out (c : Dev nD) : W9 m ρ c (Proc.devRef .tc main_v65)
    = result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  refine (KFold.fin_out (W7 m ρ c)).trans ?_
  rw [W7_out, W6_out, W7_v3, W7_v6, W7_v29, W7_arg5, W3_src, W3_dst, W3_norm, W3_arg5]
  rfl

/-- The idealized kernel program's run: the result array at `result` of the arguments, the arguments unchanged. -/
theorem run : θ_run defs (onTc (τ := τ) (main (F := Ideal))) ⟨m, fun _ => 0, ρ⟩ (fun r => ∀ c : Dev nD,
      r.2.mem ((c.tc : Thread nD τ).loc main_v65)
          = result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c).1.trans (W9_out m ρ c), (h c).2⟩) (Cert.KernelIdeal.RunV.run_main m ρ)

end Cert.Gcn.KVal

end
-- ==== Proof.RSpec.lean ====
/-
  The host side of the two-layer graph convolution, as pure functions over the reference program's shapes: the message
  endpoints read off the edge list, the symmetric normalisation, and what each layer does to its dense product.
-/
import proofs.«168640_j2147483648538_1_alg».proof.Proof.Gen.ReferenceIdeal

noncomputable section

namespace Cert.Gcn.R

open Cert.ReferenceIdeal Cert.ReferenceIdeal.Gen Idealize.ShloMosaic

variable {F : FTy → Type} [FloatOps F]

/-- The sources of all messages: row 0 of the edge list, then every node once (its loop to itself). -/
def srcOf (e : (⟨S2x3200000, .i32⟩ : BufTy).Contents (Elt F)) : (⟨S3300000, .i32⟩ : BufTy).Contents (Elt F) :=
  concatenate S3300000 0 [⟨S3200000, shapeCast S3200000 (extractStridedSlice S1x3200000 ![0, 0] e slices_S2x3200000_S1x3200000_0_0) shapeCasts_S1x3200000_S3200000⟩, ⟨S100000, iotaInDim S100000 32 0⟩] concatenates_S3200000_S100000_S3300000_d0

/-- The destinations of all messages: row 1 of the edge list, then every node once. -/
def dstOf (e : (⟨S2x3200000, .i32⟩ : BufTy).Contents (Elt F)) : (⟨S3300000, .i32⟩ : BufTy).Contents (Elt F) :=
  concatenate S3300000 0 [⟨S3200000, shapeCast S3200000 (extractStridedSlice S1x3200000 ![1, 0] e slices_S2x3200000_S1x3200000_1_0) shapeCasts_S1x3200000_S3200000⟩, ⟨S100000, iotaInDim S100000 32 0⟩] concatenates_S3200000_S100000_S3300000_d0

/-- Node numbers as a column of row positions for a gather: a negative number counts from the end (100000 is added). -/
def wrap (s : (⟨S3300000, .i32⟩ : BufTy).Contents (Elt F)) : (⟨S3300000x1, .i32⟩ : BufTy).Contents (Elt F) :=
  broadcastInDim S3300000x1 ![0] bcast_S3300000_S3300000x1_0
    (select (cmpi .slt s (broadcastInDim S3300000 ![] bcast_S_S3300000 (constantI S_ 32 0#32)))
      (addi s (broadcastInDim S3300000 ![] bcast_S_S3300000 (constantI S_ 32 100000#32))) s)

/-- In-degree of every node, loops included: ones added up at the destinations. -/
def degOf (d : (⟨S3300000, .i32⟩ : BufTy).Contents (Elt F)) : (⟨S100000, .f32⟩ : BufTy).Contents (Elt F) :=
  Host.scatterAdd scatter_S100000_S3300000x1_S3300000_n_0_0_1
    (broadcastInDim S100000 ![] bcast_S_S100000 (constant S_ .f32 0x00000000#32))
    (broadcastInDim S3300000x1 ![0] bcast_S3300000_S3300000x1_0 d)
    (broadcastInDim S3300000 ![] bcast_S_S3300000 (constant S_ .f32 0x3F800000#32))

/-- deg^(-1/2) where the degree is positive, 0 elsewhere. -/
def dinvOf (d : (⟨S3300000, .i32⟩ : BufTy).Contents (Elt F)) : (⟨S100000, .f32⟩ : BufTy).Contents (Elt F) :=
  select (cmpf (F := F) .ogt (degOf d) (broadcastInDim S100000 ![] bcast_S_S100000 (constant S_ .f32 0x00000000#32)))
    (Host.rsqrt (degOf d))
    (broadcastInDim S100000 ![] bcast_S_S100000 (constant S_ .f32 0x00000000#32))

/-- The symmetric weight of every message: dinv at its source times dinv at its destination. -/
def normOf (s d : (⟨S3300000, .i32⟩ : BufTy).Contents (Elt F)) : (⟨S3300000, .f32⟩ : BufTy).Contents (Elt F) :=
  mulf (Host.gather gather_S100000_S3300000x1_S3300000_n_0_n_n_0_1_1 (dinvOf d) (wrap s))
    (Host.gather gather_S100000_S3300000x1_S3300000_n_0_n_n_0_1_1 (dinvOf d) (wrap d))

/-- The first layer after its dense product `h`: the rows of `h` at the sources, weighted, added up at the
    destinations; the bias added to every row; negative entries replaced by 0. -/
def tail1 (h : (⟨S100000x16, .f32⟩ : BufTy).Contents (Elt F)) (s d : (⟨S3300000, .i32⟩ : BufTy).Contents (Elt F))
    (nrm : (⟨S3300000, .f32⟩ : BufTy).Contents (Elt F)) (b : (⟨S16, .f32⟩ : BufTy).Contents (Elt F)) :
    (⟨S100000x16, .f32⟩ : BufTy).Contents (Elt F) :=
  maximumf
    (addf
      (Host.scatterAdd scatter_S100000x16_S3300000x1_S3300000x16_1_0_0_1
        (broadcastInDim S100000x16 ![] bcast_S_S100000x16 (constant S_ .f32 0x00000000#32))
        (broadcastInDim S3300000x1 ![0] bcast_S3300000_S3300000x1_0 d)
        (mulf (Host.gather gather_S100000x16_S3300000x1_S3300000x16_1_0_n_n_0_1_116 h (wrap s))
          (broadcastInDim S3300000x16 ![0, 1] bcast_S3300000x1_S3300000x16_0_1
            (broadcastInDim S3300000x1 ![0] bcast_S3300000_S3300000x1_0 nrm))))
      (broadcastInDim S100000x16 ![0, 1] bcast_S1x16_S100000x16_0_1 (broadcastInDim S1x16 ![1] bcast_S16_S1x16_1 b)))
    (broadcastInDim S100000x16 ![] bcast_S_S100000x16 (constant S_ .f32 0x00000000#32))

/-- A row minus its largest entry (the largest taken against -∞). -/
def shifted (z : (⟨S100000x7, .f32⟩ : BufTy).Contents (Elt F)) : (⟨S100000x7, .f32⟩ : BufTy).Contents (Elt F) :=
  subf z
    (broadcastInDim S100000x7 ![0, 1] bcast_S100000x1_S100000x7_0_1
      (broadcastInDim S100000x1 ![0] bcast_S100000_S100000x1_0
        (maximumf (broadcastInDim S100000 ![] bcast_S_S100000 (constant S_ .f32 0xFF800000#32))
          (Host.reduce FloatOps.maximumf z (constant S_ .f32 0xFF800000#32) reducesTo_S100000x7_S100000_d1 h_S_))))

/-- The logarithm of the row-wise softmax: the shifted row minus the logarithm of the sum of its exponentials. -/
def logSoftmax (z : (⟨S100000x7, .f32⟩ : BufTy).Contents (Elt F)) : (⟨S100000x7, .f32⟩ : BufTy).Contents (Elt F) :=
  subf (shifted z)
    (broadcastInDim S100000x7 ![0, 1] bcast_S100000x1_S100000x7_0_1
      (Host.log
        (broadcastInDim S100000x1 ![0] bcast_S100000_S100000x1_0
          (Host.reduceAdd (Host.exp (shifted z)) (constant S_ .f32 0x00000000#32) reducesTo_S100000x7_S100000_d1 h_S_))))

/-- The second layer after its dense product `h`: the same aggregation over 7 columns, the bias, the log-softmax of
    every row. -/
def tail2 (h : (⟨S100000x7, .f32⟩ : BufTy).Contents (Elt F)) (s d : (⟨S3300000, .i32⟩ : BufTy).Contents (Elt F))
    (nrm : (⟨S3300000, .f32⟩ : BufTy).Contents (Elt F)) (b : (⟨S7, .f32⟩ : BufTy).Contents (Elt F)) :
    (⟨S100000x7, .f32⟩ : BufTy).Contents (Elt F) :=
  logSoftmax
    (addf
      (Host.scatterAdd scatter_S100000x7_S3300000x1_S3300000x7_1_0_0_1
        (broadcastInDim S100000x7 ![] bcast_S_S100000x7 (constant S_ .f32 0x00000000#32))
        (broadcastInDim S3300000x1 ![0] bcast_S3300000_S3300000x1_0 d)
        (mulf (Host.gather gather_S100000x7_S3300000x1_S3300000x7_1_0_n_n_0_1_17 h (wrap s))
          (broadcastInDim S3300000x7 ![0, 1] bcast_S3300000x1_S3300000x7_0_1
            (broadcastInDim S3300000x1 ![0] bcast_S3300000_S3300000x1_0 nrm))))
      (broadcastInDim S100000x7 ![0, 1] bcast_S1x7_S100000x7_0_1 (broadcastInDim S1x7 ![1] bcast_S7_S1x7_1 b)))

end Cert.Gcn.R

end
-- ==== Proof.RefValue.lean ====
/-
  The reference program's result as a function of its six arguments: its 131 host operations, read in order at the
  result's buffer, are the second layer's aggregation, bias and log-softmax of the dense product of the second weight
  with the first layer's output, which is the aggregation, bias and rectifier of the dense product of the features with
  the first weight; the message endpoints and weights are read off the edge list (twice, to the same functions).
-/
import proofs.«168640_j2147483648538_1_alg».proof.Proof.RefRunP
import proofs.«168640_j2147483648538_1_alg».proof.Proof.RSpec

set_option maxRecDepth 16384

noncomputable section

namespace Cert.Gcn.RVal

open Cert.ReferenceIdeal Cert.ReferenceIdeal.Gen Cert.ReferenceIdeal.ValueP
open Idealize.ShloMosaic Idealize.ShloMosaic.TcCoe Idealize.SL.Sem Idealize.ShloMosaic.StableHlo
open Cert.Gcn.R

variable {F : FTy → Type} [FloatOps F]

/-- Contents carried to a buffer's own type and back are the contents. -/
theorem ofBuf_toBuf {sig : RefSig} {Val : EltTy → Type} {T : BufTy} (x : TRef sig T) (v : T.Contents Val) :
    x.ofBuf (x.toBuf v) = v := by
  obtain ⟨r, h, h2, h3⟩ := x
  subst h
  rfl

theorem in_cst_2 (y : main_cst_2.ty.Contents (Elt F)) : (TRef.of (T := ⟨S_, .f32⟩) main_cst_2).ofBuf y = y := rfl
theorem in_v13 (y : main_v13.ty.Contents (Elt F)) : (TRef.of (T := ⟨S100000, .i1⟩) main_v13).ofBuf y = y := rfl
theorem in_v14 (y : main_v14.ty.Contents (Elt F)) : (TRef.of (T := ⟨S100000, .f32⟩) main_v14).ofBuf y = y := rfl
theorem out_v15 (y : (⟨S100000, .f32⟩ : BufTy).Contents (Elt F)) : (TRef.of (T := ⟨S100000, .f32⟩) main_v15).toBuf y = y := rfl
theorem in_v46 (y : main_v46.ty.Contents (Elt F)) : (TRef.of (T := ⟨S100000x16, .f32⟩) main_v46).ofBuf y = y := rfl
theorem out_v47 (y : (⟨S100000x16, .f32⟩ : BufTy).Contents (Elt F)) : (TRef.of (T := ⟨S100000x16, .f32⟩) main_v47).toBuf y = y := rfl
theorem in_cst_12 (y : main_cst_12.ty.Contents (Elt F)) : (TRef.of (T := ⟨S_, .f32⟩) main_cst_12).ofBuf y = y := rfl
theorem in_v54 (y : main_v54.ty.Contents (Elt F)) : (TRef.of (T := ⟨S100000, .i1⟩) main_v54).ofBuf y = y := rfl
theorem in_v55 (y : main_v55.ty.Contents (Elt F)) : (TRef.of (T := ⟨S100000, .f32⟩) main_v55).ofBuf y = y := rfl
theorem out_v56 (y : (⟨S100000, .f32⟩ : BufTy).Contents (Elt F)) : (TRef.of (T := ⟨S100000, .f32⟩) main_v56).toBuf y = y := rfl
theorem in_v87 (y : main_v87.ty.Contents (Elt F)) : (TRef.of (T := ⟨S100000x7, .f32⟩) main_v87).ofBuf y = y := rfl
theorem out_v88 (y : (⟨S100000x7, .f32⟩ : BufTy).Contents (Elt F)) : (TRef.of (T := ⟨S100000x7, .f32⟩) main_v88).toBuf y = y := rfl

/-- The result as a function of the arguments. -/
def result (x : (⟨S100000x500, .f32⟩ : BufTy).Contents (Elt F)) (e : (⟨S2x3200000, .i32⟩ : BufTy).Contents (Elt F))
    (w1 : (⟨S500x16, .f32⟩ : BufTy).Contents (Elt F)) (b1 : (⟨S16, .f32⟩ : BufTy).Contents (Elt F))
    (w2 : (⟨S16x7, .f32⟩ : BufTy).Contents (Elt F)) (b2 : (⟨S7, .f32⟩ : BufTy).Contents (Elt F)) :
    (⟨S100000x7, .f32⟩ : BufTy).Contents (Elt F) :=
  tail2
    (Host.dotGeneral dot_S100000x16_S16x7_S100000x7_1_0_0_1_n_n none
      (tail1 (Host.dotGeneral dot_S100000x500_S500x16_S100000x16_1_0_0_1_n_n none x w1)
        (srcOf e) (dstOf e) (normOf (srcOf e) (dstOf e)) b1) w2)
    (srcOf e) (dstOf e) (normOf (srcOf e) (dstOf e)) b2

set_option maxHeartbeats 4000000 in
/-- The fold of the reference's operations, at the result's buffer. -/
theorem read_result (V : Valuation τ sig (Elt F)) :
    after ops V (Proc.devRef .tc main_v88)
      = result (V (Proc.devRef .tc main_arg0)) (V (Proc.devRef .tc main_arg1)) (V (Proc.devRef .tc main_arg2))
          (V (Proc.devRef .tc main_arg3)) (V (Proc.devRef .tc main_arg4)) (V (Proc.devRef .tc main_arg5)) := by
  after_results_simp
  try after_results
  try simp only [ofBuf_toBuf, in_cst_2, in_v13, in_v14, out_v15, in_v46, out_v47, in_cst_12, in_v54, in_v55, out_v56, in_v87, out_v88, id_eq]
  unfold result tail2 logSoftmax shifted tail1 normOf dinvOf degOf wrap srcOf dstOf
  rfl

set_option maxHeartbeats 4000000 in
theorem read_arg0 (V : Valuation τ sig (Elt F)) : after ops V (Proc.devRef .tc main_arg0) = V (Proc.devRef .tc main_arg0) := by
  after_results_simp
set_option maxHeartbeats 4000000 in
theorem read_arg1 (V : Valuation τ sig (Elt F)) : after ops V (Proc.devRef .tc main_arg1) = V (Proc.devRef .tc main_arg1) := by
  after_results_simp
set_option maxHeartbeats 4000000 in
theorem read_arg2 (V : Valuation τ sig (Elt F)) : after ops V (Proc.devRef .tc main_arg2) = V (Proc.devRef .tc main_arg2) := by
  after_results_simp
set_option maxHeartbeats 4000000 in
theorem read_arg3 (V : Valuation τ sig (Elt F)) : after ops V (Proc.devRef .tc main_arg3) = V (Proc.devRef .tc main_arg3) := by
  after_results_simp
set_option maxHeartbeats 4000000 in
theorem read_arg4 (V : Valuation τ sig (Elt F)) : after ops V (Proc.devRef .tc main_arg4) = V (Proc.devRef .tc main_arg4) := by
  after_results_simp
set_option maxHeartbeats 4000000 in
theorem read_arg5 (V : Valuation τ sig (Elt F)) : after ops V (Proc.devRef .tc main_arg5) = V (Proc.devRef .tc main_arg5) := by
  after_results_simp

/-- The reference's run: the result array at `result` of the arguments, the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v88)
          = result (m ((c.tc : Thread nD τ).loc main_arg0)) (m ((c.tc : Thread nD τ).loc main_arg1))
              (m ((c.tc : Thread nD τ).loc main_arg2)) (m ((c.tc : Thread nD τ).loc main_arg3))
              (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
      ⟨(h c main_v88).trans (read_result (launchContents m c)),
       (h c main_arg0).trans (read_arg0 (launchContents m c)),
       (h c main_arg1).trans (read_arg1 (launchContents m c)),
       (h c main_arg2).trans (read_arg2 (launchContents m c)),
       (h c main_arg3).trans (read_arg3 (launchContents m c)),
       (h c main_arg4).trans (read_arg4 (launchContents m c)),
       (h c main_arg5).trans (read_arg5 (launchContents m c))⟩)
    (run_raw m ρ)

end Cert.Gcn.RVal

end
-- ==== Proof.Cross.lean ====
/-
  The host-side functions written over the kernel program's shapes and over the reference program's shapes are the same
  functions: the two programs name equal shapes and equal gather, scatter and broadcast layouts separately, and nothing
  else differs.
-/
import proofs.«168640_j2147483648538_1_alg».proof.Proof.KSpec
import proofs.«168640_j2147483648538_1_alg».proof.Proof.RSpec

noncomputable section

namespace Cert.Gcn.Cross

open Idealize.ShloMosaic

variable {F : FTy → Type} [FloatOps F]

theorem srcOf_eq (e : (⟨Cert.KernelIdeal.S2x3200000, .i32⟩ : BufTy).Contents (Elt F)) : K.srcOf e = R.srcOf e := rfl

theorem dstOf_eq (e : (⟨Cert.KernelIdeal.S2x3200000, .i32⟩ : BufTy).Contents (Elt F)) : K.dstOf e = R.dstOf e := rfl

theorem normOf_eq (s d : (⟨Cert.KernelIdeal.S3300000, .i32⟩ : BufTy).Contents (Elt F)) : K.normOf s d = R.normOf s d := rfl

theorem tail1_eq (h : (⟨Cert.KernelIdeal.S100000x16, .f32⟩ : BufTy).Contents (Elt F))
    (s d : (⟨Cert.KernelIdeal.S3300000, .i32⟩ : BufTy).Contents (Elt F))
    (n : (⟨Cert.KernelIdeal.S3300000, .f32⟩ : BufTy).Contents (Elt F)) (b : (⟨Cert.KernelIdeal.S16, .f32⟩ : BufTy).Contents (Elt F)) :
    K.tail1 h s d n b = R.tail1 h s d n b := rfl

theorem tail2_eq (h : (⟨Cert.KernelIdeal.S100000x7, .f32⟩ : BufTy).Contents (Elt F))
    (s d : (⟨Cert.KernelIdeal.S3300000, .i32⟩ : BufTy).Contents (Elt F))
    (n : (⟨Cert.KernelIdeal.S3300000, .f32⟩ : BufTy).Contents (Elt F)) (b : (⟨Cert.KernelIdeal.S7, .f32⟩ : BufTy).Contents (Elt F)) :
    K.tail2 h s d n b = R.tail2 h s d n b := rfl

end Cert.Gcn.Cross

end
-- ==== Proof.Bridge.lean ====
/-
  The two programs' results are one function of the arguments over the extended reals. Both apply the same host-side
  stages around two dense products; the reference takes each product by the host's `dot_general`, which entry by
  entry is the sum over the contracted coordinate of the products of the operands' entries, and the kernel program's
  regions leave exactly that function of their operand arrays.
-/
import proofs.«168640_j2147483648538_1_alg».proof.Proof.KernelValue
import proofs.«168640_j2147483648538_1_alg».proof.Proof.RefValue
import proofs.«168640_j2147483648538_1_alg».proof.Proof.Cross
import proofs.«168640_j2147483648538_1_alg».proof.Proof.LibDense

noncomputable section

namespace Cert.Gcn.Bridge

open Idealize.ShloMosaic Cert.Dense

/-- The reference's first product is the product of its operands, entry by entry. -/
theorem dot1_eq (A : (⟨Cert.ReferenceIdeal.S100000x500, .f32⟩ : BufTy).Contents (Elt Ideal))
    (B : (⟨Cert.ReferenceIdeal.S500x16, .f32⟩ : BufTy).Contents (Elt Ideal)) :
    Host.dotGeneral (F := Ideal) (φ₁ := .f32) (φ₂ := .f32) Cert.ReferenceIdeal.dot_S100000x500_S500x16_S100000x16_1_0_0_1_n_n none A B
      = dense 100000 500 16 A B :=
  dotGeneral_eq_dense (M := 100000) (K := 500) (N := 16) none .single A B

/-- The reference's second product is the product of its operands, entry by entry. -/
theorem dot2_eq (A : (⟨Cert.ReferenceIdeal.S100000x16, .f32⟩ : BufTy).Contents (Elt Ideal))
    (B : (⟨Cert.ReferenceIdeal.S16x7, .f32⟩ : BufTy).Contents (Elt Ideal)) :
    Host.dotGeneral (F := Ideal) (φ₁ := .f32) (φ₂ := .f32) Cert.ReferenceIdeal.dot_S100000x16_S16x7_S100000x7_1_0_0_1_n_n none A B
      = dense 100000 16 7 A B :=
  dotGeneral_eq_dense (M := 100000) (K := 16) (N := 7) none .single A B

/-- The kernel program's result and the reference's are the same function of the arguments. -/
theorem result_eq (x : (⟨Cert.KernelIdeal.S100000x500, .f32⟩ : BufTy).Contents (Elt Ideal))
    (e : (⟨Cert.KernelIdeal.S2x3200000, .i32⟩ : BufTy).Contents (Elt Ideal))
    (w1 : (⟨Cert.KernelIdeal.S500x16, .f32⟩ : BufTy).Contents (Elt Ideal)) (b1 : (⟨Cert.KernelIdeal.S16, .f32⟩ : BufTy).Contents (Elt Ideal))
    (w2 : (⟨Cert.KernelIdeal.S16x7, .f32⟩ : BufTy).Contents (Elt Ideal)) (b2 : (⟨Cert.KernelIdeal.S7, .f32⟩ : BufTy).Contents (Elt Ideal)) :
    Cert.Gcn.RVal.result (F := Ideal) x e w1 b1 w2 b2 = Cert.Gcn.KVal.result x e w1 b1 w2 b2 := by
  unfold Cert.Gcn.RVal.result Cert.Gcn.KVal.result
  rw [dot1_eq, dot2_eq, Cross.tail2_eq, Cross.tail1_eq, Cross.srcOf_eq, Cross.dstOf_eq, Cross.normOf_eq]

end Cert.Gcn.Bridge

end
-- ==== Proof.lean ====
/-
  A two-layer graph convolution, kernel against reference, over the extended reals.

  Both programs compute, from node features x [100000, 500], an edge list [2, 3200000], weights W1 [500, 16],
  W2 [16, 7] and biases b1, b2:  log_softmax(A (relu(A (x W1) + b1) W2) + b2), where A adds up, at every message's
  destination, the row at its source scaled by dinv[source] · dinv[destination]; the messages are the listed edges and
  one loop per node, and dinv is deg^(-1/2) of the in-degree (0 where the degree is not positive). The host
  operations that build the messages, aggregate, add the bias and apply the rectifier and the log-softmax are the same
  in the two programs, operation for operation (the reference computes the weights twice, to the same function). The
  programs differ only in the two dense products: the reference takes each with one `dot_general`; the kernel program
  runs a pipelined region over 25 blocks of 4000 rows, whose body rounds both blocks to bf16 and multiplies them on
  the vector unit into a zero accumulator. Over the extended reals rounding is the identity and both products are,
  entry by entry, the sum over the contracted coordinate of the products of the operands' entries; the blocks tile the
  rows, so each region leaves the whole product. No law that needs finite values is used, and the precondition is
  never opened.

  The modules: `KSpec` / `RSpec` (the host-side stages as pure functions, over each program's shapes) and `Cross`
  (they are the same functions); `LibDense` over `LibPlainDot` (the dense product entry by entry, for the host's
  contraction and the vector unit's); `Mat0`, `Mat1` (each region leaves the product of its operand arrays);
  `KFolds` (what each stretch of host operations leaves in the buffers read later); `KernelRun`, `KernelValue` (the
  kernel program's run with its result as a function of the arguments); `RefRunP`, `RefValue` (the same for the
  reference); `Bridge` (the two functions are equal). The word-level kernel and the idealized one run, fault-free and
  leaving their arguments unchanged, by their frame certificates; the idealization rewrote no operation.
-/
import proofs.«168640_j2147483648538_1_alg».proof.Defs
import proofs.«168640_j2147483648538_1_alg».proof.Proof.Gen.Kernel
import proofs.«168640_j2147483648538_1_alg».proof.Proof.Gen.Kernel.Skeleton
import proofs.«168640_j2147483648538_1_alg».proof.Proof.Gen.Kernel.Launch
import proofs.«168640_j2147483648538_1_alg».proof.Proof.Gen.Kernel.Points
import proofs.«168640_j2147483648538_1_alg».proof.Proof.Gen.Kernel.Frame
import proofs.«168640_j2147483648538_1_alg».proof.Proof.Gen.KernelIdeal
import proofs.«168640_j2147483648538_1_alg».proof.Proof.Gen.KernelIdeal.Skeleton
import proofs.«168640_j2147483648538_1_alg».proof.Proof.Gen.KernelIdeal.Launch
import proofs.«168640_j2147483648538_1_alg».proof.Proof.Gen.KernelIdeal.Points
import proofs.«168640_j2147483648538_1_alg».proof.Proof.Gen.KernelIdeal.Frame
import proofs.«168640_j2147483648538_1_alg».proof.Proof.Gen.ReferenceIdeal
import proofs.«168640_j2147483648538_1_alg».proof.Proof.Gen.Pre_finite_inputs
import proofs.«168640_j2147483648538_1_alg».proof.Proof.Bridge
import Idealize.ShloMosaic.Adequacy
import Idealize.ShloMosaic.Init

noncomputable section

namespace Cert.Proof

open Idealize.ShloMosaic Idealize.SL.Sem

/-- The word-level kernel program runs and leaves its arguments unchanged. -/
theorem frame_k : Cert.frame_Kernel := fun m ρ _ => Cert.Kernel.Gen.frame m ρ

/-- So does the idealized kernel program. -/
theorem frame_ki : Cert.frame_KernelIdeal := fun m ρ _ => Cert.KernelIdeal.Gen.frame m ρ

/-- And the reference: its run, the statement about the result dropped. -/
theorem frame_ri : Cert.frame_ReferenceIdeal := fun m ρ _ =>
  (θ_run Cert.ReferenceIdeal.defs _ _).mono (fun _ h c => (h c).2) (Cert.Gcn.RVal.run (F := Ideal) m ρ)

/-- The idealization rewrote no operation. -/
theorem preserves : Cert.preserves_Kernel_KernelIdeal := trivial

/-- From memories that agree on the arguments both programs end with the same result array: one function of the
    arguments. -/
theorem algebraic : Cert.algebraic_KernelIdeal_ReferenceIdeal := by
  intro m ρ m' ρ' _ hagree
  refine ⟨fun c => Cert.Gcn.KVal.result (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), Cert.Gcn.KVal.run m ρ, ?_⟩
  refine (θ_run Cert.ReferenceIdeal.defs _ _).mono (fun _ h c => ⟨(h c).1.trans ?_, (h c).2⟩)
    (Cert.Gcn.RVal.run (F := Ideal) m' ρ')
  obtain ⟨h0, h1, h2, h3, h4, h5⟩ := hagree c
  rw [h0, h1, h2, h3, h4, h5]
  exact Cert.Gcn.Bridge.result_eq _ _ _ _ _ _

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
